-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1650000x128 : Shape := ⟨2, ![1650000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 62
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S128x128, .f32⟩
  | .hbm, ⟨29, _⟩ => ⟨S50000x128, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000x128, .f32⟩
  | .hbm, ⟨39, _⟩ => ⟨S_, .f32⟩
  | .hbm, ⟨40, _⟩ => ⟨S50000x128, .f32⟩
  | .hbm, ⟨41, _⟩ => ⟨S1650000x1, .i32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S_, .f32⟩
  | .hbm, ⟨57, _⟩ => ⟨S50000x128, .f32⟩
  | .hbm, ⟨58, _⟩ => ⟨S1650000x1, .i32⟩
  | .hbm, ⟨59, _⟩ => ⟨S50000x128, .f32⟩
  | .hbm, ⟨60, _⟩ => ⟨S1x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_c : Ref sig .tc := ⟨.hbm, 30, rfl⟩
abbrev main_call0_v18 : Ref sig .tc := ⟨.hbm, 31, rfl⟩
abbrev main_call0_v19 : Ref sig .tc := ⟨.hbm, 32, rfl⟩
abbrev main_call0_c_3 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_cst_4 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_c_5 : Ref sig .tc := ⟨.hbm, 47, rfl⟩
abbrev main_call0_v32 : Ref sig .tc := ⟨.hbm, 48, rfl⟩
abbrev main_call0_v33 : Ref sig .tc := ⟨.hbm, 49, rfl⟩
abbrev main_call0_c_6 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_cst_7 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_v0 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  transposes_S128x128_S128x128_1_0 : S128x128.Transposes [1, 0] S128x128
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S1650000x1_S1650000_n_0_0_1_wf : ScatterDims.WF S50000 S1650000x1 S1650000 [] [0] [0] 1
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v30) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v31) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v0) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S_, .f32⟩
  | 14 => ⟨S1650000, .f32⟩
  | 15 => ⟨S_, .f32⟩
  | 16 => ⟨S50000, .f32⟩
  | 17 => ⟨S1650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S1650000, .i32⟩
  | 29 => ⟨S1650000, .i1⟩
  | 30 => ⟨S_, .i32⟩
  | 31 => ⟨S1650000, .i32⟩
  | 32 => ⟨S1650000, .i32⟩
  | 33 => ⟨S1650000, .i32⟩
  | 34 => ⟨S1650000x1, .i32⟩
  | 35 => ⟨S1650000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S128x128, .f32⟩
  | 47 => ⟨S50000x128, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000x128, .f32⟩
  | 57 => ⟨S1650000x1, .f32⟩
  | 58 => ⟨S1650000x128, .f32⟩
  | 59 => ⟨S1650000x128, .f32⟩
  | 60 => ⟨S_, .f32⟩
  | 61 => ⟨S50000x128, .f32⟩
  | 62 => ⟨S1650000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000, .i32⟩
  | 71 => ⟨S1x1600000, .i32⟩
  | 72 => ⟨S1600000, .i32⟩
  | 73 => ⟨S1650000, .i32⟩
  | 74 => ⟨S1x1600000, .i32⟩
  | 75 => ⟨S1600000, .i32⟩
  | 76 => ⟨S1650000, .i32⟩
  | 77 => ⟨S_, .f32⟩
  | 78 => ⟨S1650000, .f32⟩
  | 79 => ⟨S_, .f32⟩
  | 80 => ⟨S50000, .f32⟩
  | 81 => ⟨S1650000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S1650000, .i32⟩
  | 93 => ⟨S1650000, .i1⟩
  | 94 => ⟨S_, .i32⟩
  | 95 => ⟨S1650000, .i32⟩
  | 96 => ⟨S1650000, .i32⟩
  | 97 => ⟨S1650000, .i32⟩
  | 98 => ⟨S1650000x1, .i32⟩
  | 99 => ⟨S1650000, .f32⟩
  | 100 => ⟨S_, .i32⟩
  | 101 => ⟨S1650000, .i32⟩
  | 102 => ⟨S1650000, .i1⟩
  | 103 => ⟨S_, .i32⟩
  | 104 => ⟨S1650000, .i32⟩
  | 105 => ⟨S1650000, .i32⟩
  | 106 => ⟨S1650000, .i32⟩
  | 107 => ⟨S1650000x1, .i32⟩
  | 108 => ⟨S1650000, .f32⟩
  | 109 => ⟨S1650000, .f32⟩
  | 110 => ⟨S128x128, .f32⟩
  | 111 => ⟨S50000x128, .f32⟩
  | 112 => ⟨S_, .i32⟩
  | 113 => ⟨S1650000, .i32⟩
  | 114 => ⟨S1650000, .i1⟩
  | 115 => ⟨S_, .i32⟩
  | 116 => ⟨S1650000, .i32⟩
  | 117 => ⟨S1650000, .i32⟩
  | 118 => ⟨S1650000, .i32⟩
  | 119 => ⟨S1650000x1, .i32⟩
  | 120 => ⟨S1650000x128, .f32⟩
  | 121 => ⟨S1650000x1, .f32⟩
  | 122 => ⟨S1650000x128, .f32⟩
  | 123 => ⟨S1650000x128, .f32⟩
  | 124 => ⟨S_, .f32⟩
  | 125 => ⟨S50000x128, .f32⟩
  | 126 => ⟨S1650000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  transposes_S128x128_S128x128_1_0 : S128x128.Transposes [1, 0] S128x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.KRun.lean ====
/-
  The kernel program's run with its RESULT array named: every weakly fair execution of the four pallas_calls and the host
  operations between them terminates, nothing faulting, with the result buffer at what the last region's write-backs
  leave (the last boundary's contents) and the argument arrays as launched. The launch and the segments are the frame's;
  only the final state is read at one more buffer.
-/
import proofs.«170651_j54700703482252_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, its result buffer read at the last boundary's contents. -/
theorem run_v0 : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Val

end
-- ==== Proof.LibERealFactor.lean ====
/-
  A general lemma file: moving a factor across a finite sum of EXTENDED reals without knowing the summands are real.

  On the extended reals `(a + b) · v = a · v + b · v` fails in general (`(⊤ + ⊥) · v`), and the usual road to
  distributivity goes through the reals, which asks every summand to be finite. When the FACTOR is nonnegative and
  finite the law holds for arbitrary summands, hence for any finite sum (`sum_mul_nonneg`, `mul_sum_nonneg`). Such a
  factor is, for instance, an inverse square root of a positive extended real (`rsqrt_nonneg_fin`: `1/√x` for a
  positive real, `0` at `+∞`), the degree normalisation of a graph convolution.
-/
import Idealize.ShloMosaic.PureOps.Ideal

noncomputable section

open scoped BigOperators

namespace Cert.LibERealFactor

open Idealize.ShloMosaic

/-- A nonnegative finite factor on the right moves across a finite sum of extended reals, whatever the summands. -/
theorem sum_mul_nonneg {ι : Type*} (s : Finset ι) (f : ι → EReal) (v : EReal) (h0 : 0 ≤ v) (ht : v ≠ ⊤) :
    (∑ e ∈ s, f e) * v = ∑ e ∈ s, f e * v := by
  classical
  induction s using Finset.induction_on with
  | empty => simp
  | insert a s ha ih =>
    rw [Finset.sum_insert ha, Finset.sum_insert ha, ← ih]
    exact EReal.right_distrib_of_nonneg_of_ne_top h0 ht _ _

/-- The same with the factor on the left. -/
theorem mul_sum_nonneg {ι : Type*} (s : Finset ι) (f : ι → EReal) (v : EReal) (h0 : 0 ≤ v) (ht : v ≠ ⊤) :
    v * ∑ e ∈ s, f e = ∑ e ∈ s, v * f e := by
  rw [mul_comm, sum_mul_nonneg s f v h0 ht]
  exact Finset.sum_congr rfl fun e _ => mul_comm _ _

/-- The inverse square root of a positive extended real is nonnegative and finite (`0` at `+∞`). -/
theorem rsqrt_nonneg_fin (x : EReal) (hx : 0 < x) : 0 ≤ Ideal.rsqrt x ∧ Ideal.rsqrt x ≠ ⊤ := by
  induction x using EReal.rec with
  | bot => exact absurd hx (by simp)
  | top => exact ⟨le_refl _, by simp⟩
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

end Cert.LibERealFactor

end
-- ==== Proof.GcnLaw.lean ====
/-
  Two-layer graph convolution with symmetric degree normalisation, at the exact (extended-real) values: the law that
  lets the normalisation be split between the source and the destination of an edge.

  A layer sends along every edge `e` (source row `rs e`, destination key `cs e`) the source's feature row
  `hw (rs e)` and adds what arrives at node `n` (the edges whose key is `n`). With the weight of edge `e` the product
  `inv (rs e) · inv (cn e)`, where `cn e` is the destination read back as a row and therefore `n` itself whenever the
  key is `n`, the sum over the edges at `n` of `hw (rs e) · (inv (rs e) · inv n)` equals the sum of
  `hw (rs e) · inv (rs e)` multiplied ONCE by `inv n` afterwards. On the extended reals a factor moves across a finite
  sum when it is nonnegative and finite, whatever the summands are; `inv`, an inverse square root of a positive
  number or a masked zero, is such a factor, so the law needs nothing of the features.
-/
import Idealize.ShloMosaic.PureOps.Ideal
import Idealize.ShloMosaic.PureOps.Ideal.Laws
import Idealize.ShloMosaic.Lib.ValueIdx
import proofs.«170651_j54700703482252_2_alg».proof.Proof.LibERealFactor

noncomputable section

open scoped BigOperators

namespace Cert.Gcn

open Idealize.ShloMosaic Idealize.ShloMosaic.ValueIdx Cert.LibERealFactor

/-- The masked inverse square root of a degree: `1/√d` where `d > 0`, else `0`. -/
def invOf (d : EReal) : EReal :=
  Scalar.select (Ideal.cmp .ogt d (Ideal.ofBits .f32 0x00000000#32)) (Ideal.rsqrt d) (Ideal.ofBits .f32 0x00000000#32)

theorem invOf_nonneg_fin (d : EReal) : 0 ≤ invOf d ∧ invOf d ≠ ⊤ := by
  unfold invOf Scalar.select Ideal.cmp
  rw [Ideal.ofBits_zero_f32]
  by_cases h : (0 : EReal) < d
  · simp only [h, decide_true, BitVec.ofBool_true, if_true]
    exact rsqrt_nonneg_fin d h
  · simp only [h, decide_false, BitVec.ofBool_false]
    rw [if_neg (by decide)]
    exact ⟨le_refl _, by simp⟩

variable {N C E K : Nat}

/-- The signed key of edge `e`: the start index a scatter reads, not clamped. -/
def keyOf (idx : IVec ⟨2, ![E, 1]⟩ 32) : Fin E → Int := fun e => (idx (ix2 e (0 : Fin 1))).toInt

/-- The row a gather reads for edge `e`: the start index read signed and clamped into `[0, N − 1]`. -/
def rowOf (hN : 0 < N) (idx : IVec ⟨2, ![E, 1]⟩ 32) : Fin E → Fin N :=
  fun e => ⟨min (idx (ix2 e (0 : Fin 1))).toInt.toNat (N - 1), by omega⟩

/-- The matrix product `X · WT` at `(n, c)`. -/
def mm (X : (⟨2, ![N, K]⟩ : Shape).Idx → EReal) (WT : (⟨2, ![K, C]⟩ : Shape).Idx → EReal) (n : Fin N) (c : Fin C) : EReal :=
  ∑ k : Fin K, X (ix2 n k) * WT (ix2 k c)

/-- What arrives at node `n`, the features scaled at the source and the sum scaled once at the destination. -/
def aggK (cs : Fin E → Int) (rs : Fin E → Fin N) (inv : Fin N → EReal) (hw : Fin N → Fin C → EReal) (n : Fin N) (c : Fin C) : EReal :=
  (Ideal.ofBits .f32 0x00000000#32 + ∑ e : Fin E, if cs e = (n.val : Int) then hw (rs e) c * inv (rs e) else 0) * inv n

/-- What arrives at node `n`, every edge weighted by the product of its two ends' factors. -/
def aggR (cs : Fin E → Int) (rs cn : Fin E → Fin N) (inv : Fin N → EReal) (hw : Fin N → Fin C → EReal) (n : Fin N) (c : Fin C) : EReal :=
  Ideal.ofBits .f32 0x00000000#32 + ∑ e : Fin E, if cs e = (n.val : Int) then hw (rs e) c * (inv (rs e) * inv (cn e)) else 0

/-- THE LAW: the two aggregations agree when the factors are nonnegative and finite and an edge whose key is `n`
    reads its destination factor at `n`. -/
theorem aggK_eq_aggR (cs : Fin E → Int) (rs cn : Fin E → Fin N) (inv : Fin N → EReal)
    (hinv : ∀ n, 0 ≤ inv n ∧ inv n ≠ ⊤) (hcn : ∀ e (n : Fin N), cs e = (n.val : Int) → cn e = n)
    (hw : Fin N → Fin C → EReal) (n : Fin N) (c : Fin C) :
    aggK cs rs inv hw n c = aggR cs rs cn inv hw n c := by
  unfold aggK aggR
  rw [Ideal.ofBits_zero_f32, zero_add, zero_add, sum_mul_nonneg _ _ _ (hinv n).1 (hinv n).2]
  refine Finset.sum_congr rfl fun e _ => ?_
  by_cases h : cs e = (n.val : Int)
  · rw [if_pos h, if_pos h, hcn e n h, mul_assoc]
  · rw [if_neg h, if_neg h, zero_mul]

/-- The first layer: aggregate, add the bias, clamp below at zero. -/
def layer1 (agg : Fin N → Fin C → EReal) (b : Fin C → EReal) (n : Fin N) (c : Fin C) : EReal :=
  max (agg n c + b c) (Ideal.ofBits .f32 0x00000000#32)

/-- The second layer: aggregate, add the bias, add the residual. -/
def layer2 (agg : Fin N → Fin C → EReal) (b : Fin C → EReal) (x : Fin N → Fin C → EReal) (n : Fin N) (c : Fin C) : EReal :=
  (agg n c + b c) + x n c

/-- A two-argument function as an array. -/
def arr (f : Fin N → Fin C → EReal) : (⟨2, ![N, C]⟩ : Shape).Idx → EReal := fun i => f (i 0) (i 1)

theorem arr_ix2 (f : Fin N → Fin C → EReal) (n : Fin N) (c : Fin C) : arr f (ix2 n c) = f n c := rfl

/-- The whole network in the source-scaled form. -/
def netK (cs : Fin E → Int) (rs : Fin E → Fin N) (inv : Fin N → EReal)
    (X : (⟨2, ![N, C]⟩ : Shape).Idx → EReal) (WT1 WT2 : (⟨2, ![C, C]⟩ : Shape).Idx → EReal) (b1 b2 : Fin C → EReal) :
    Fin N → Fin C → EReal :=
  layer2 (aggK cs rs inv (mm (arr (layer1 (aggK cs rs inv (mm X WT1)) b1)) WT2)) b2 (fun n c => X (ix2 n c))

/-- The whole network in the edge-weighted form. -/
def netR (cs : Fin E → Int) (rs cn : Fin E → Fin N) (inv : Fin N → EReal)
    (X : (⟨2, ![N, C]⟩ : Shape).Idx → EReal) (WT1 WT2 : (⟨2, ![C, C]⟩ : Shape).Idx → EReal) (b1 b2 : Fin C → EReal) :
    Fin N → Fin C → EReal :=
  layer2 (aggR cs rs cn inv (mm (arr (layer1 (aggR cs rs cn inv (mm X WT1)) b1)) WT2)) b2 (fun n c => X (ix2 n c))

theorem netK_eq_netR (cs : Fin E → Int) (rs cn : Fin E → Fin N) (inv : Fin N → EReal)
    (hinv : ∀ n, 0 ≤ inv n ∧ inv n ≠ ⊤) (hcn : ∀ e (n : Fin N), cs e = (n.val : Int) → cn e = n)
    (X : (⟨2, ![N, C]⟩ : Shape).Idx → EReal) (WT1 WT2 : (⟨2, ![C, C]⟩ : Shape).Idx → EReal) (b1 b2 : Fin C → EReal) :
    netK cs rs inv X WT1 WT2 b1 b2 = netR cs rs cn inv X WT1 WT2 b1 b2 := by
  have h : ∀ hw : Fin N → Fin C → EReal, aggK cs rs inv hw = aggR cs rs cn inv hw :=
    fun hw => funext fun n => funext fun c => aggK_eq_aggR cs rs cn inv hinv hcn hw n c
  unfold netK netR
  rw [h, h]

end Cert.Gcn

end
-- ==== Proof.KSpec.lean ====
/-
  What each of the four pallas_calls computes, as whole-array functions over the extended reals: the two matrix products
  scaled row by row by the degree factor, and the two epilogues (destination scaling, bias, then a clamp at zero or the
  residual).
-/
import proofs.«170651_j54700703482252_2_alg».proof.KernelIdeal
import proofs.«170651_j54700703482252_2_alg».proof.Proof.GcnLaw

noncomputable section

open Idealize.ShloMosaic Idealize.ShloMosaic.ValueIdx

namespace Cert.KernelIdeal.Val

open Cert.KernelIdeal

theorem hz : (![0, 0] : Fin 2 → Nat) = fun _ => 0 := funext fun a => by fin_cases a <;> rfl

/-- The scaled product: `(x · wt)(n, c) · inv(n)`. -/
def scaledMM (x : S50000x128.Idx → EReal) (wt : S128x128.Idx → EReal) (inv : S50000x1.Idx → EReal) : S50000x128.Idx → EReal :=
  fun i => Cert.Gcn.mm x wt (i 0) (i 1) * inv (ix2 (i 0) (0 : Fin 1))

theorem scaledMM_ix2 (x : S50000x128.Idx → EReal) (wt : S128x128.Idx → EReal) (inv : S50000x1.Idx → EReal) (n : Fin 50000) (c : Fin 128) :
    scaledMM x wt inv (ix2 n c) = Cert.Gcn.mm x wt n c * inv (ix2 n (0 : Fin 1)) := rfl

/-- The first epilogue: `max (s(n, c) · inv(n) + b(c)) 0`. -/
def biasRelu (s : S50000x128.Idx → EReal) (inv : S50000x1.Idx → EReal) (b : S1x128.Idx → EReal) : S50000x128.Idx → EReal :=
  fun i => max (s i * inv (ix2 (i 0) (0 : Fin 1)) + b (ix2 (0 : Fin 1) (i 1))) (Ideal.ofBits .f32 0x00000000#32)

theorem biasRelu_ix2 (s : S50000x128.Idx → EReal) (inv : S50000x1.Idx → EReal) (b : S1x128.Idx → EReal) (n : Fin 50000) (c : Fin 128) :
    biasRelu s inv b (ix2 n c) = max (s (ix2 n c) * inv (ix2 n (0 : Fin 1)) + b (ix2 (0 : Fin 1) c)) (Ideal.ofBits .f32 0x00000000#32) := rfl

/-- The second epilogue: `(s(n, c) · inv(n) + b(c)) + res(n, c)`. -/
def biasRes (s : S50000x128.Idx → EReal) (inv : S50000x1.Idx → EReal) (b : S1x128.Idx → EReal) (res : S50000x128.Idx → EReal) : S50000x128.Idx → EReal :=
  fun i => (s i * inv (ix2 (i 0) (0 : Fin 1)) + b (ix2 (0 : Fin 1) (i 1))) + res i

theorem biasRes_ix2 (s : S50000x128.Idx → EReal) (inv : S50000x1.Idx → EReal) (b : S1x128.Idx → EReal) (res : S50000x128.Idx → EReal) (n : Fin 50000) (c : Fin 128) :
    biasRes s inv b res (ix2 n c) = (s (ix2 n c) * inv (ix2 n (0 : Fin 1)) + b (ix2 (0 : Fin 1) c)) + res (ix2 n c) := rfl

end Cert.KernelIdeal.Val

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.KReg0.lean ====
/-
  The first pallas_call, read as ONE function of the arrays it finds: every row block of its result is the product of
  that block of rows of `x` with the whole transposed weight, each row then scaled by that row's degree factor, so the
  result array is `(x · Wᵀ)(n, c) · inv(n)` at every `(n, c)`. Block `t` holds rows `5000·t … 5000·t + 4999`; the ten
  blocks tile the array.
-/
import proofs.«170651_j54700703482252_2_alg».proof.Proof.Gen.KernelIdeal.Frame
import proofs.«170651_j54700703482252_2_alg».proof.Proof.KSpec
import proofs.«170651_j54700703482252_2_alg».proof.Proof.LibMatmulNN
import proofs.«170651_j54700703482252_2_alg».proof.Proof.LibColumns
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The body's arithmetic at `(p, q)` of a block: the row of the left block against the column of the weight, scaled
    by the row's factor. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  refine congrArg₂ (· * ·) ?_ ?_
  · refine (Cert.LibMatmulNN.matmul_nn_apply dot_S5000x128_S128x128_S5000x128_1_0_0_1_n_n rfl rfl rfl rfl rfl rfl none _ _ p q).trans ?_
    simp only [truncf_apply, shapeCast_self]
  · refine (Cert.LibColumns.broadcastTo_a1_ab_apply _ _ p q).trans ?_
    rw [shapeCast_self]

section Region0

variable (V : (c : Dev nD) → (b : Ref sig .tc) → Buf (Elt Ideal) ((c : Thread nD τ).loc b))

/-- The printed index maps over the grid: the row-blocked windows sit at block row `t`, the weight at its only block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of block `t` of `x` is row `5000·t + p` of the array. -/
theorem iblk0_0_apply (c : Dev nD) (t : Fin cfg0.N) (p : Fin 5000) (k : Fin 128) (r : Fin 50000) (hr : r.val = t.val * 5000 + p.val) :
    (iblk0 V c 0 t : Vec Ideal S5000x128 .f32) (ix2 p k) = (V c main_arg0 : S50000x128.Idx → EReal) (ix2 r k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight's block is the whole transposed weight. -/
theorem iblk0_1_apply (c : Dev nD) (t : Fin cfg0.N) (k : Fin 128) (q : Fin 128) :
    (iblk0 V c 1 t : Vec Ideal S128x128 .f32) (ix2 k q) = (V c main_call0_v16 : S128x128.Idx → EReal) (ix2 k q) := by
  obtain ⟨-, -, e0, e1, -⟩ := idx_facts0 t
  unfold iblk0
  rw [View.read_apply]
  show V c main_call0_v16 _ = V c main_call0_v16 _
  refine congrArg (V c main_call0_v16) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Row `p` of block `t` of the factor column is row `5000·t + p` of the column. -/
theorem iblk0_2_apply (c : Dev nD) (t : Fin cfg0.N) (p : Fin 5000) (r : Fin 50000) (hr : r.val = t.val * 5000 + p.val) :
    (iblk0 V c 2 t : Vec Ideal S5000x1 .f32) (ix2 p (0 : Fin 1)) = (V c main_call0_v15 : S50000x1.Idx → EReal) (ix2 r (0 : Fin 1)) := by
  obtain ⟨-, -, -, -, e0, e1, -⟩ := idx_facts0 t
  unfold iblk0
  rw [View.read_apply]
  show V c main_call0_v15 _ = V c main_call0_v15 _
  refine congrArg (V c main_call0_v15) (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- Element `(p, q)` of the result's block `t` sits at `(5000·t + p, q)` of the result array. -/
theorem emb0_3 (t : Fin cfg0.N) (p : Fin 5000) (q : Fin 128) (r : Fin 50000) (hr : r.val = t.val * 5000 + p.val) :
    ((cfg0.win 3).blk t).view.emb (ix2 p q) = (ix2 r q : S50000x128.Idx) := by
  obtain ⟨-, -, -, -, -, -, e0, e1⟩ := idx_facts0 t
  refine funext fun a => Fin.ext ?_
  match a with
  | ⟨0, _⟩ => show win0_3.index t (0 : Fin 2) * 5000 + 1 * p.val = r.val; rw [e0, hr]; omega
  | ⟨1, _⟩ => show win0_3.index t (1 : Fin 2) * 128 + 1 * q.val = q.val; rw [e1]; omega

/-- What point `t` writes back is block `t` of the scaled product of the arrays the region finds. -/
theorem flushed0_eq (c : Dev nD) (t : Fin cfg0.N) :
    (dat0 V c).flushed 3 t = ((cfg0.win 3).blk t).view.read (Elt Ideal)
      (scaledMM (V c main_arg0) (V c main_call0_v16) (V c main_call0_v15)) := by
  have hN : cfg0.N = 10 := N_0
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have hp : p.val < 5000 := p.isLt
  have ht : t.val < 10 := hN ▸ t.isLt
  let r : Fin 50000 := ⟨t.val * 5000 + p.val, by omega⟩
  show k0_pay1 (F := Ideal) (iblk0 V c 0 t) (iblk0 V c 1 t) (iblk0 V c 2 t) (ix2 p q)
    = scaledMM (V c main_arg0) (V c main_call0_v16) (V c main_call0_v15) (((cfg0.win 3).blk t).view.emb (ix2 p q))
  rw [emb0_3 t p q r rfl, scaledMM_ix2]
  refine (pay0_apply _ _ _ p q).trans ?_
  refine congrArg₂ (· * ·) (Finset.sum_congr rfl fun k _ => ?_) (iblk0_2_apply V c t p r rfl)
  exact congrArg₂ (· * ·) (iblk0_0_apply V c t p k r rfl) (iblk0_1_apply V c t k q)

/-- An index of the result array is in point `t`'s block iff each coordinate is in the block's range. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_call0_v17).slice (win0_3.rect t)).set ↔ _
  rw [View.set_slice_whole, Rect.mem_set_unit]
  exact Iff.rfl

/-- The ten row blocks tile the result array. -/
theorem cover0 (i : S50000x128.Idx) : ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  obtain ⟨-, -, -, -, -, -, e0, e1⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0]; show (i 0).val / 5000 * 5000 ≤ (i 0).val ∧ (i 0).val < (i 0).val / 5000 * 5000 + 5000; omega
  | ⟨1, _⟩ =>
    show win0_3.index t (1 : Fin 2) * 128 ≤ (i 1).val ∧ (i 1).val < win0_3.index t (1 : Fin 2) * 128 + 128
    rw [e1]; omega

/-- THE RESULT ARRAY of the first pallas_call: the scaled product of the arrays the region finds. -/
theorem final0 (c : Dev nD) :
    (dat0 V c).arrAt 3 cfg0.N = scaledMM (V c main_arg0) (V c main_call0_v16) (V c main_call0_v15) :=
  (dat0 V c).arrAt_eq_of_cover 3 _ (fun t _ => flushed0_eq V c t) cover0

end Region0

end Cert.KernelIdeal.Val

end
-- ==== Proof.KReg1.lean ====
/-
  The second pallas_call, read as ONE function of the arrays it finds: every row block of its result is, element by
  element, the aggregated block scaled by the row's degree factor plus the bias row, clamped below at zero. Block `t`
  holds rows `5000·t … 5000·t + 4999`; the ten blocks tile the array.
-/
import proofs.«170651_j54700703482252_2_alg».proof.Proof.Gen.KernelIdeal.Frame
import proofs.«170651_j54700703482252_2_alg».proof.Proof.KSpec
import proofs.«170651_j54700703482252_2_alg».proof.Proof.LibColumns
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The body's arithmetic at `(p, q)` of a block. -/
theorem pay1_apply (x0 : Vec Ideal S5000x128 .f32) (x1 : Vec Ideal S5000x1 .f32) (x2 : Vec Ideal S1x128 .f32)
    (p : Fin 5000) (q : Fin 128) :
    k1_pay1 (F := Ideal) x0 x1 x2 (ix2 p q) = max (x0 (ix2 p q) * x1 (ix2 p (0 : Fin 1)) + x2 (ix2 (0 : Fin 1) q)) (Ideal.ofBits .f32 0x00000000#32) := by
  unfold k1_pay1
  refine congrArg₂ max (congrArg₂ (· + ·) (congrArg₂ (· * ·) ?_ ?_) ?_) rfl
  · rw [shapeCast_self]
  · refine (Cert.LibColumns.broadcastTo_a1_ab_apply _ _ p q).trans ?_
    rw [shapeCast_self]
  · refine (broadcastTo_1b_ab_apply _ _ p q).trans ?_
    rw [shapeCast_self]

section Region1

variable (V : (c : Dev nD) → (b : Ref sig .tc) → Buf (Elt Ideal) ((c : Thread nD τ).loc b))

/-- The printed index maps over the grid: the row-blocked windows sit at block row `t`, the bias row at its only block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Element `(p, q)` of block `t` of this row-blocked operand is element `(5000·t + p, q)` of its array. -/
theorem iblk1_0_apply (c : Dev nD) (t : Fin cfg1.N) (p : Fin 5000) (q : Fin 128) (r : Fin 50000) (hr : r.val = t.val * 5000 + p.val) :
    (iblk1 V c 0 t : Vec Ideal S5000x128 .f32) (ix2 p q) = (V c main_call0_v27 : S50000x128.Idx → EReal) (ix2 r q) := by
  obtain ⟨e0, e1, -⟩ := idx_facts1 t
  unfold iblk1
  rw [View.read_apply]
  show V c main_call0_v27 _ = V c main_call0_v27 _
  refine congrArg (V c main_call0_v27) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Row `p` of block `t` of the factor column is row `5000·t + p` of the column. -/
theorem iblk1_1_apply (c : Dev nD) (t : Fin cfg1.N) (p : Fin 5000) (r : Fin 50000) (hr : r.val = t.val * 5000 + p.val) :
    (iblk1 V c 1 t : Vec Ideal S5000x1 .f32) (ix2 p (0 : Fin 1)) = (V c main_call0_v15 : S50000x1.Idx → EReal) (ix2 r (0 : Fin 1)) := by
  obtain ⟨-, -, e0, e1, -⟩ := idx_facts1 t
  unfold iblk1
  rw [View.read_apply]
  show V c main_call0_v15 _ = V c main_call0_v15 _
  refine congrArg (V c main_call0_v15) (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- The bias row's block is the whole row. -/
theorem iblk1_2_apply (c : Dev nD) (t : Fin cfg1.N) (q : Fin 128) :
    (iblk1 V c 2 t : Vec Ideal S1x128 .f32) (ix2 (0 : Fin 1) q) = (V c main_call0_v28 : S1x128.Idx → EReal) (ix2 (0 : Fin 1) q) := by
  obtain ⟨-, -, -, -, e0, e1, -⟩ := idx_facts1 t
  unfold iblk1
  rw [View.read_apply]
  show V c main_call0_v28 _ = V c main_call0_v28 _
  refine congrArg (V c main_call0_v28) (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- Element `(p, q)` of the result's block `t` sits at `(5000·t + p, q)` of the result array. -/
theorem emb1_3 (t : Fin cfg1.N) (p : Fin 5000) (q : Fin 128) (r : Fin 50000) (hr : r.val = t.val * 5000 + p.val) :
    ((cfg1.win 3).blk t).view.emb (ix2 p q) = (ix2 r q : S50000x128.Idx) := by
  obtain ⟨-, -, -, -, -, -, e0, e1⟩ := idx_facts1 t
  refine funext fun a => Fin.ext ?_
  match a with
  | ⟨0, _⟩ => show win1_3.index t (0 : Fin 2) * 5000 + 1 * p.val = r.val; rw [e0, hr]; omega
  | ⟨1, _⟩ => show win1_3.index t (1 : Fin 2) * 128 + 1 * q.val = q.val; rw [e1]; omega

/-- What point `t` writes back is block `t` of the epilogue of the arrays the region finds. -/
theorem flushed1_eq (c : Dev nD) (t : Fin cfg1.N) :
    (dat1 V c).flushed 3 t = ((cfg1.win 3).blk t).view.read (Elt Ideal)
      (biasRelu (V c main_call0_v27) (V c main_call0_v15) (V c main_call0_v28)) := by
  have hN : cfg1.N = 10 := N_1
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  have hp : p.val < 5000 := p.isLt
  have ht : t.val < 10 := hN ▸ t.isLt
  let r : Fin 50000 := ⟨t.val * 5000 + p.val, by omega⟩
  show k1_pay1 (F := Ideal) (iblk1 V c 0 t) (iblk1 V c 1 t) (iblk1 V c 2 t) (ix2 p q)
    = biasRelu (V c main_call0_v27) (V c main_call0_v15) (V c main_call0_v28) (((cfg1.win 3).blk t).view.emb (ix2 p q))
  rw [emb1_3 t p q r rfl, biasRelu_ix2]
  refine (pay1_apply _ _ _ p q).trans ?_
  refine congrArg₂ max (congrArg₂ (· + ·) (congrArg₂ (· * ·) (iblk1_0_apply V c t p q r rfl) (iblk1_1_apply V c t p r rfl)) (iblk1_2_apply V c t q)) rfl

/-- An index of the result array is in point `t`'s block iff each coordinate is in the block's range. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_call0_v29).slice (win1_3.rect t)).set ↔ _
  rw [View.set_slice_whole, Rect.mem_set_unit]
  exact Iff.rfl

/-- The ten row blocks tile the result array. -/
theorem cover1 (i : S50000x128.Idx) : ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  let t : Fin cfg1.N := ⟨(i 0).val / 5000, by rw [hN]; omega⟩
  obtain ⟨-, -, -, -, -, -, e0, e1⟩ := idx_facts1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0]; show (i 0).val / 5000 * 5000 ≤ (i 0).val ∧ (i 0).val < (i 0).val / 5000 * 5000 + 5000; omega
  | ⟨1, _⟩ =>
    show win1_3.index t (1 : Fin 2) * 128 ≤ (i 1).val ∧ (i 1).val < win1_3.index t (1 : Fin 2) * 128 + 128
    rw [e1]; omega

/-- THE RESULT ARRAY of this pallas_call: the epilogue of the arrays the region finds. -/
theorem final1 (c : Dev nD) :
    (dat1 V c).arrAt 3 cfg1.N = biasRelu (V c main_call0_v27) (V c main_call0_v15) (V c main_call0_v28) :=
  (dat1 V c).arrAt_eq_of_cover 3 _ (fun t _ => flushed1_eq V c t) cover1

end Region1

end Cert.KernelIdeal.Val

end
-- ==== Proof.KReg2.lean ====
/-
  The third pallas_call (the second layer's product), read as ONE function of the arrays it finds: every row block of its result is the product of
  that block of rows of `x` with the whole transposed weight, each row then scaled by that row's degree factor, so the
  result array is `(x · Wᵀ)(n, c) · inv(n)` at every `(n, c)`. Block `t` holds rows `5000·t … 5000·t + 4999`; the ten
  blocks tile the array.
-/
import proofs.«170651_j54700703482252_2_alg».proof.Proof.Gen.KernelIdeal.Frame
import proofs.«170651_j54700703482252_2_alg».proof.Proof.KSpec
import proofs.«170651_j54700703482252_2_alg».proof.Proof.LibMatmulNN
import proofs.«170651_j54700703482252_2_alg».proof.Proof.LibColumns
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The body's arithmetic at `(p, q)` of a block: the row of the left block against the column of the weight, scaled
    by the row's factor. -/
theorem pay2_apply (x0 : Vec Ideal S5000x128 .f32) (x1 : Vec Ideal S128x128 .f32) (x2 : Vec Ideal S5000x1 .f32)
    (p : Fin 5000) (q : Fin 128) :
    k2_pay1 (F := Ideal) x0 x1 x2 (ix2 p q) = (∑ k : Fin 128, x0 (ix2 p k) * x1 (ix2 k q)) * x2 (ix2 p (0 : Fin 1)) := by
  unfold k2_pay1
  refine congrArg₂ (· * ·) ?_ ?_
  · refine (Cert.LibMatmulNN.matmul_nn_apply dot_S5000x128_S128x128_S5000x128_1_0_0_1_n_n rfl rfl rfl rfl rfl rfl none _ _ p q).trans ?_
    simp only [truncf_apply, shapeCast_self]
  · refine (Cert.LibColumns.broadcastTo_a1_ab_apply _ _ p q).trans ?_
    rw [shapeCast_self]

section Region2

variable (V : (c : Dev nD) → (b : Ref sig .tc) → Buf (Elt Ideal) ((c : Thread nD τ).loc b))

/-- The printed index maps over the grid: the row-blocked windows sit at block row `t`, the weight at its only block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `p` of block `t` of `x` is row `5000·t + p` of the array. -/
theorem iblk2_0_apply (c : Dev nD) (t : Fin cfg2.N) (p : Fin 5000) (k : Fin 128) (r : Fin 50000) (hr : r.val = t.val * 5000 + p.val) :
    (iblk2 V c 0 t : Vec Ideal S5000x128 .f32) (ix2 p k) = (V c main_call0_v29 : S50000x128.Idx → EReal) (ix2 r k) := by
  obtain ⟨e0, e1, -⟩ := idx_facts2 t
  unfold iblk2
  rw [View.read_apply]
  show V c main_call0_v29 _ = V c main_call0_v29 _
  refine congrArg (V c main_call0_v29) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight's block is the whole transposed weight. -/
theorem iblk2_1_apply (c : Dev nD) (t : Fin cfg2.N) (k : Fin 128) (q : Fin 128) :
    (iblk2 V c 1 t : Vec Ideal S128x128 .f32) (ix2 k q) = (V c main_call0_v30 : S128x128.Idx → EReal) (ix2 k q) := by
  obtain ⟨-, -, e0, e1, -⟩ := idx_facts2 t
  unfold iblk2
  rw [View.read_apply]
  show V c main_call0_v30 _ = V c main_call0_v30 _
  refine congrArg (V c main_call0_v30) (funext fun a => Fin.ext ?_)
  match a with
  | ⟨0, _⟩ => show win2_1.index t (0 : Fin 2) * 128 + 1 * k.val = k.val; rw [e0]; omega
  | ⟨1, _⟩ => show win2_1.index t (1 : Fin 2) * 128 + 1 * q.val = q.val; rw [e1]; omega

/-- Row `p` of block `t` of the factor column is row `5000·t + p` of the column. -/
theorem iblk2_2_apply (c : Dev nD) (t : Fin cfg2.N) (p : Fin 5000) (r : Fin 50000) (hr : r.val = t.val * 5000 + p.val) :
    (iblk2 V c 2 t : Vec Ideal S5000x1 .f32) (ix2 p (0 : Fin 1)) = (V c main_call0_v15 : S50000x1.Idx → EReal) (ix2 r (0 : Fin 1)) := by
  obtain ⟨-, -, -, -, e0, e1, -⟩ := idx_facts2 t
  unfold iblk2
  rw [View.read_apply]
  show V c main_call0_v15 _ = V c main_call0_v15 _
  refine congrArg (V c main_call0_v15) (funext fun a => Fin.ext ?_)
  match a with
  | ⟨0, _⟩ => show win2_2.index t (0 : Fin 2) * 5000 + 1 * p.val = r.val; rw [e0, hr]; omega
  | ⟨1, _⟩ => show win2_2.index t (1 : Fin 2) * 1 + 1 * 0 = 0; rw [e1]

/-- Element `(p, q)` of the result's block `t` sits at `(5000·t + p, q)` of the result array. -/
theorem emb2_3 (t : Fin cfg2.N) (p : Fin 5000) (q : Fin 128) (r : Fin 50000) (hr : r.val = t.val * 5000 + p.val) :
    ((cfg2.win 3).blk t).view.emb (ix2 p q) = (ix2 r q : S50000x128.Idx) := by
  obtain ⟨-, -, -, -, -, -, e0, e1⟩ := idx_facts2 t
  refine funext fun a => Fin.ext ?_
  match a with
  | ⟨0, _⟩ => show win2_3.index t (0 : Fin 2) * 5000 + 1 * p.val = r.val; rw [e0, hr]; omega
  | ⟨1, _⟩ => show win2_3.index t (1 : Fin 2) * 128 + 1 * q.val = q.val; rw [e1]; omega

/-- What point `t` writes back is block `t` of the scaled product of the arrays the region finds. -/
theorem flushed2_eq (c : Dev nD) (t : Fin cfg2.N) :
    (dat2 V c).flushed 3 t = ((cfg2.win 3).blk t).view.read (Elt Ideal)
      (scaledMM (V c main_call0_v29) (V c main_call0_v30) (V c main_call0_v15)) := by
  have hN : cfg2.N = 10 := N_2
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have hp : p.val < 5000 := p.isLt
  have ht : t.val < 10 := hN ▸ t.isLt
  let r : Fin 50000 := ⟨t.val * 5000 + p.val, by omega⟩
  show k2_pay1 (F := Ideal) (iblk2 V c 0 t) (iblk2 V c 1 t) (iblk2 V c 2 t) (ix2 p q)
    = scaledMM (V c main_call0_v29) (V c main_call0_v30) (V c main_call0_v15) (((cfg2.win 3).blk t).view.emb (ix2 p q))
  rw [emb2_3 t p q r rfl, scaledMM_ix2]
  refine (pay2_apply _ _ _ p q).trans ?_
  refine congrArg₂ (· * ·) (Finset.sum_congr rfl fun k _ => ?_) (iblk2_2_apply V c t p r rfl)
  exact congrArg₂ (· * ·) (iblk2_0_apply V c t p k r rfl) (iblk2_1_apply V c t k q)

/-- An index of the result array is in point `t`'s block iff each coordinate is in the block's range. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_call0_v31).slice (win2_3.rect t)).set ↔ _
  rw [View.set_slice_whole, Rect.mem_set_unit]
  exact Iff.rfl

/-- The ten row blocks tile the result array. -/
theorem cover2 (i : S50000x128.Idx) : ∃ t : Fin cfg2.N, (cfg2.win 3).flush t = true ∧ i ∈ ((cfg2.win 3).blk t).view.set := by
  have hN : cfg2.N = 10 := N_2
  have hi0 : (i 0).val < 50000 := (i 0).isLt
  have hi1 : (i 1).val < 128 := (i 1).isLt
  let t : Fin cfg2.N := ⟨(i 0).val / 5000, by rw [hN]; omega⟩
  obtain ⟨-, -, -, -, -, -, e0, e1⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e0]; show (i 0).val / 5000 * 5000 ≤ (i 0).val ∧ (i 0).val < (i 0).val / 5000 * 5000 + 5000; omega
  | ⟨1, _⟩ =>
    show win2_3.index t (1 : Fin 2) * 128 ≤ (i 1).val ∧ (i 1).val < win2_3.index t (1 : Fin 2) * 128 + 128
    rw [e1]; omega

/-- THE RESULT ARRAY of the third pallas_call: the scaled product of the arrays the region finds. -/
theorem final2 (c : Dev nD) :
    (dat2 V c).arrAt 3 cfg2.N = scaledMM (V c main_call0_v29) (V c main_call0_v30) (V c main_call0_v15) :=
  (dat2 V c).arrAt_eq_of_cover 3 _ (fun t _ => flushed2_eq V c t) cover2

end Region2

end Cert.KernelIdeal.Val

end
-- ==== Proof.KReg3.lean ====
/-
  The fourth pallas_call, read as ONE function of the arrays it finds: every row block of its result is, element by
  element, the aggregated block scaled by the row's degree factor plus the bias row, plus the residual block. Block `t`
  holds rows `5000·t … 5000·t + 4999`; the ten blocks tile the array.
-/
import proofs.«170651_j54700703482252_2_alg».proof.Proof.Gen.KernelIdeal.Frame
import proofs.«170651_j54700703482252_2_alg».proof.Proof.KSpec
import proofs.«170651_j54700703482252_2_alg».proof.Proof.LibColumns
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The body's arithmetic at `(p, q)` of a block. -/
theorem pay3_apply (x0 : Vec Ideal S5000x128 .f32) (x1 : Vec Ideal S5000x1 .f32) (x2 : Vec Ideal S1x128 .f32) (x3 : Vec Ideal S5000x128 .f32)
    (p : Fin 5000) (q : Fin 128) :
    k3_pay1 (F := Ideal) x0 x1 x2 x3 (ix2 p q) = (x0 (ix2 p q) * x1 (ix2 p (0 : Fin 1)) + x2 (ix2 (0 : Fin 1) q)) + x3 (ix2 p q) := by
  unfold k3_pay1
  refine congrArg₂ (· + ·) (congrArg₂ (· + ·) (congrArg₂ (· * ·) ?_ ?_) ?_) rfl
  · rw [shapeCast_self]
  · refine (Cert.LibColumns.broadcastTo_a1_ab_apply _ _ p q).trans ?_
    rw [shapeCast_self]
  · refine (broadcastTo_1b_ab_apply _ _ p q).trans ?_
    rw [shapeCast_self]

section Region3

variable (V : (c : Dev nD) → (b : Ref sig .tc) → Buf (Elt Ideal) ((c : Thread nD τ).loc b))

/-- The printed index maps over the grid: the row-blocked windows sit at block row `t`, the bias row at its only block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Element `(p, q)` of block `t` of this row-blocked operand is element `(5000·t + p, q)` of its array. -/
theorem iblk3_0_apply (c : Dev nD) (t : Fin cfg3.N) (p : Fin 5000) (q : Fin 128) (r : Fin 50000) (hr : r.val = t.val * 5000 + p.val) :
    (iblk3 V c 0 t : Vec Ideal S5000x128 .f32) (ix2 p q) = (V c main_call0_v41 : S50000x128.Idx → EReal) (ix2 r q) := by
  obtain ⟨e0, e1, -⟩ := idx_facts3 t
  unfold iblk3
  rw [View.read_apply]
  show V c main_call0_v41 _ = V c main_call0_v41 _
  refine congrArg (V c main_call0_v41) (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

/-- Row `p` of block `t` of the factor column is row `5000·t + p` of the column. -/
theorem iblk3_1_apply (c : Dev nD) (t : Fin cfg3.N) (p : Fin 5000) (r : Fin 50000) (hr : r.val = t.val * 5000 + p.val) :
    (iblk3 V c 1 t : Vec Ideal S5000x1 .f32) (ix2 p (0 : Fin 1)) = (V c main_call0_v15 : S50000x1.Idx → EReal) (ix2 r (0 : Fin 1)) := by
  obtain ⟨-, -, e0, e1, -⟩ := idx_facts3 t
  unfold iblk3
  rw [View.read_apply]
  show V c main_call0_v15 _ = V c main_call0_v15 _
  refine congrArg (V c main_call0_v15) (funext fun a => Fin.ext ?_)
  match a with
  | ⟨0, _⟩ => show win3_1.index t (0 : Fin 2) * 5000 + 1 * p.val = r.val; rw [e0, hr]; omega
  | ⟨1, _⟩ => show win3_1.index t (1 : Fin 2) * 1 + 1 * 0 = 0; rw [e1]

/-- The bias row's block is the whole row. -/
theorem iblk3_2_apply (c : Dev nD) (t : Fin cfg3.N) (q : Fin 128) :
    (iblk3 V c 2 t : Vec Ideal S1x128 .f32) (ix2 (0 : Fin 1) q) = (V c main_call0_v42 : S1x128.Idx → EReal) (ix2 (0 : Fin 1) q) := by
  obtain ⟨-, -, -, -, e0, e1, -⟩ := idx_facts3 t
  unfold iblk3
  rw [View.read_apply]
  show V c main_call0_v42 _ = V c main_call0_v42 _
  refine congrArg (V c main_call0_v42) (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega

/-- Element `(p, q)` of block `t` of this row-blocked operand is element `(5000·t + p, q)` of its array. -/
theorem iblk3_3_apply (c : Dev nD) (t : Fin cfg3.N) (p : Fin 5000) (q : Fin 128) (r : Fin 50000) (hr : r.val = t.val * 5000 + p.val) :
    (iblk3 V c 3 t : Vec Ideal S5000x128 .f32) (ix2 p q) = (V c main_arg0 : S50000x128.Idx → EReal) (ix2 r q) := by
  obtain ⟨-, -, -, -, -, -, e0, e1, -⟩ := idx_facts3 t
  unfold iblk3
  rw [View.read_apply]
  show V c main_arg0 _ = V c main_arg0 _
  refine congrArg (V c main_arg0) (funext fun a => Fin.ext ?_)
  match a with
  | ⟨0, _⟩ => show win3_3.index t (0 : Fin 2) * 5000 + 1 * p.val = r.val; rw [e0, hr]; omega
  | ⟨1, _⟩ => show win3_3.index t (1 : Fin 2) * 128 + 1 * q.val = q.val; rw [e1]; omega

/-- Element `(p, q)` of the result's block `t` sits at `(5000·t + p, q)` of the result array. -/
theorem emb3_4 (t : Fin cfg3.N) (p : Fin 5000) (q : Fin 128) (r : Fin 50000) (hr : r.val = t.val * 5000 + p.val) :
    ((cfg3.win 4).blk t).view.emb (ix2 p q) = (ix2 r q : S50000x128.Idx) := by
  obtain ⟨-, -, -, -, -, -, -, -, e0, e1⟩ := idx_facts3 t
  refine funext fun a => Fin.ext ?_
  match a with
  | ⟨0, _⟩ => show win3_4.index t (0 : Fin 2) * 5000 + 1 * p.val = r.val; rw [e0, hr]; omega
  | ⟨1, _⟩ => show win3_4.index t (1 : Fin 2) * 128 + 1 * q.val = q.val; rw [e1]; omega

/-- What point `t` writes back is block `t` of the epilogue of the arrays the region finds. -/
theorem flushed3_eq (c : Dev nD) (t : Fin cfg3.N) :
    (dat3 V c).flushed 4 t = ((cfg3.win 4).blk t).view.read (Elt Ideal)
      (biasRes (V c main_call0_v41) (V c main_call0_v15) (V c main_call0_v42) (V c main_arg0)) := by
  have hN : cfg3.N = 10 := N_3
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  have hp : p.val < 5000 := p.isLt
  have ht : t.val < 10 := hN ▸ t.isLt
  let r : Fin 50000 := ⟨t.val * 5000 + p.val, by omega⟩
  show k3_pay1 (F := Ideal) (iblk3 V c 0 t) (iblk3 V c 1 t) (iblk3 V c 2 t) (iblk3 V c 3 t) (ix2 p q)
    = biasRes (V c main_call0_v41) (V c main_call0_v15) (V c main_call0_v42) (V c main_arg0) (((cfg3.win 4).blk t).view.emb (ix2 p q))
  rw [emb3_4 t p q r rfl, biasRes_ix2]
  refine (pay3_apply _ _ _ _ p q).trans ?_
  refine congrArg₂ (· + ·) (congrArg₂ (· + ·) (congrArg₂ (· * ·) (iblk3_0_apply V c t p q r rfl) (iblk3_1_apply V c t p r rfl)) (iblk3_2_apply V c t q)) (iblk3_3_apply V c t p q r rfl)

/-- An index of the result array is in point `t`'s block iff each coordinate is in the block's range. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v0).slice (win3_4.rect t)).set ↔ _
  rw [View.set_slice_whole, Rect.mem_set_unit]
  exact Iff.rfl

/-- The ten row blocks tile the result array. -/
theorem cover3 (i : S50000x128.Idx) : ∃ t : Fin cfg3.N, (cfg3.win 4).flush t = true ∧ i ∈ ((cfg3.win 4).blk t).view.set := by
  have hN : cfg3.N = 10 := N_3
  have hi0 : (i 0).val < 50000 := (i 0).isLt
  have hi1 : (i 1).val < 128 := (i 1).isLt
  let t : Fin cfg3.N := ⟨(i 0).val / 5000, by rw [hN]; omega⟩
  obtain ⟨-, -, -, -, -, -, -, -, e0, e1⟩ := idx_facts3 t
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    rw [e0]; show (i 0).val / 5000 * 5000 ≤ (i 0).val ∧ (i 0).val < (i 0).val / 5000 * 5000 + 5000; omega
  | ⟨1, _⟩ =>
    show win3_4.index t (1 : Fin 2) * 128 ≤ (i 1).val ∧ (i 1).val < win3_4.index t (1 : Fin 2) * 128 + 128
    rw [e1]; omega

/-- THE RESULT ARRAY of this pallas_call: the epilogue of the arrays the region finds. -/
theorem final3 (c : Dev nD) :
    (dat3 V c).arrAt 4 cfg3.N = biasRes (V c main_call0_v41) (V c main_call0_v15) (V c main_call0_v42) (V c main_arg0) :=
  (dat3 V c).arrAt_eq_of_cover 4 _ (fun t _ => flushed3_eq V c t) cover3

end Region3

end Cert.KernelIdeal.Val

end
-- ==== Proof.KHost.lean ====
/-
  The kernel program between its pallas_calls: what the host operations write, as functions of the buffers they read,
  and which buffers each stretch and each region leaves alone. Composed, the result buffer after the last region is ONE
  function of the six argument arrays: the degree factor column, the edge rows and keys from the edge array; per layer
  the scaled product, its rows gathered along the edges and added up at the edges' keys, and the epilogue.
-/
import proofs.«170651_j54700703482252_2_alg».proof.Proof.Gen.KernelIdeal.Frame
import proofs.«170651_j54700703482252_2_alg».proof.Proof.KSpec
import proofs.«170651_j54700703482252_2_alg».proof.Proof.KReg0
import proofs.«170651_j54700703482252_2_alg».proof.Proof.KReg1
import proofs.«170651_j54700703482252_2_alg».proof.Proof.KReg2
import proofs.«170651_j54700703482252_2_alg».proof.Proof.KReg3
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Val

open Cert.KernelIdeal Cert.KernelIdeal.Gen

/-! ## The host values as functions of what they read -/

/-- The edges' source rows: row 0 of the edge array, then one self loop per node. -/
def rowK (E : IVec S2x1600000 32) : IVec S1650000 32 :=
  concatenate S1650000 0 [⟨S1600000, shapeCast S1600000 (extractStridedSlice S1x1600000 ![0, 0] E slices_S2x1600000_S1x1600000_0_0) shapeCasts_S1x1600000_S1600000⟩,
    ⟨S50000, iotaInDim S50000 32 0⟩] concatenates_S1600000_S50000_S1650000_d0

/-- The edges' destination keys: row 1 of the edge array, then one self loop per node. -/
def colK (E : IVec S2x1600000 32) : IVec S1650000 32 :=
  concatenate S1650000 0 [⟨S1600000, shapeCast S1600000 (extractStridedSlice S1x1600000 ![1, 0] E slices_S2x1600000_S1x1600000_1_0) shapeCasts_S1x1600000_S1600000⟩,
    ⟨S50000, iotaInDim S50000 32 0⟩] concatenates_S1600000_S50000_S1650000_d0

/-- The in-degrees: ones added up at the keys. -/
def degK (E : IVec S2x1600000 32) : FVec Ideal S50000 .f32 :=
  Host.scatterAdd (F := Ideal) scatter_S50000_S1650000x1_S1650000_n_0_0_1
    (broadcastInDim S50000 ![] bcast_S_S50000 (constant (F := Ideal) S_ .f32 0x00000000#32))
    (broadcastInDim S1650000x1 ![0] bcast_S1650000_S1650000x1_0 (colK E))
    (broadcastInDim S1650000 ![] bcast_S_S1650000 (constant (F := Ideal) S_ .f32 0x3F800000#32))

/-- The degree factor as a vector, from the degrees: `1/√deg` where the degree is positive, else `0`. -/
def invVecOf (deg : FVec Ideal S50000 .f32) : FVec Ideal S50000 .f32 :=
  select (cmpf (F := Ideal) .ogt deg (broadcastInDim S50000 ![] bcast_S_S50000 (constant (F := Ideal) S_ .f32 0x00000000#32)))
    (Host.rsqrt deg)
    (broadcastInDim S50000 ![] bcast_S_S50000 (id (constant (F := Ideal) S_ .f32 0x00000000#32)))

/-- The degree factor as a column, from the degrees. -/
def invColOf (deg : FVec Ideal S50000 .f32) : S50000x1.Idx → EReal :=
  shapeCast S50000x1 (invVecOf deg) shapeCasts_S50000_S50000x1

/-- The degree factor as a column. -/
def invK (E : IVec S2x1600000 32) : S50000x1.Idx → EReal := invColOf (degK E)

/-- The gather's start indices: the rows with a negative one wrapped by the node count, as a column. -/
def ridxK (row : IVec S1650000 32) : IVec S1650000x1 32 :=
  broadcastInDim S1650000x1 ![0] bcast_S1650000_S1650000x1_0
    (select (cmpi .slt row (broadcastInDim S1650000 ![] bcast_S_S1650000 (constantI S_ 32 0#32)))
      (addi row (broadcastInDim S1650000 ![] bcast_S_S1650000 (constantI S_ 32 50000#32))) row)

/-- The scatter's start indices: the keys as a column. -/
def cidxK (col : IVec S1650000 32) : IVec S1650000x1 32 :=
  broadcastInDim S1650000x1 ![0] bcast_S1650000_S1650000x1_0 col

/-- One layer's traffic along the edges: the rows of `h` gathered at the edges' sources and added up at their keys. -/
def aggHost (h : S50000x128.Idx → EReal) (row col : IVec S1650000 32) : S50000x128.Idx → EReal :=
  Host.scatterAdd (F := Ideal) scatter_S50000x128_S1650000x1_S1650000x128_1_0_0_1
    (broadcastInDim S50000x128 ![] bcast_S_S50000x128 (constant (F := Ideal) S_ .f32 0x00000000#32))
    (cidxK col)
    (Host.gather gather_S50000x128_S1650000x1_S1650000x128_1_0_n_n_0_1_1128 h (ridxK row))

/-- The transposed weight. -/
def trK (W : S128x128.Idx → EReal) : S128x128.Idx → EReal := transpose S128x128 [1, 0] W transposes_S128x128_S128x128_1_0

/-- The bias as a row. -/
def biasRowK (b : S128.Idx → EReal) : S1x128.Idx → EReal := shapeCast S1x128 b shapeCasts_S128_S1x128

/-- THE KERNEL PROGRAM'S RESULT as one function of its six arguments. -/
def kfun (x : S50000x128.Idx → EReal) (E : IVec S2x1600000 32) (W1 : S128x128.Idx → EReal) (b1 : S128.Idx → EReal)
    (W2 : S128x128.Idx → EReal) (b2 : S128.Idx → EReal) : S50000x128.Idx → EReal :=
  biasRes (aggHost (scaledMM (biasRelu (aggHost (scaledMM x (trK W1) (invK E)) (rowK E) (colK E)) (invK E) (biasRowK b1)) (trK W2) (invK E)) (rowK E) (colK E))
    (invK E) (biasRowK b2) x

/-! ## What each host stretch writes, from any contents `W` -/

section Host

variable (W : Valuation τ sig (Elt Ideal))

theorem h0_v3 : StableHlo.after (hostOps0 (F := Ideal)) W (Proc.devRef .tc main_call0_v3) = rowK (W (Proc.devRef .tc main_arg1)) := by
  after_results; rfl

theorem h0_v6 : StableHlo.after (hostOps0 (F := Ideal)) W (Proc.devRef .tc main_call0_v6) = colK (W (Proc.devRef .tc main_arg1)) := by
  after_results; rfl

/-- A line of operations run in two parts. -/
theorem after_split (k : Nat) (L : List (HloOp τ sig (Elt Ideal))) (V : Valuation τ sig (Elt Ideal)) :
    StableHlo.after L V = StableHlo.after (L.drop k) (StableHlo.after (L.take k) V) := by
  induction L generalizing k V with
  | nil => simp [StableHlo.after]
  | cons op ops ih =>
    cases k with
    | zero => rfl
    | succ k => exact ih k _

/-- The degrees, after the first thirteen operations. -/
theorem h0_v10_head : StableHlo.after ((hostOps0 (F := Ideal)).take 13) W (Proc.devRef .tc main_call0_v10) = degK (W (Proc.devRef .tc main_arg1)) := by
  simp only [hostOps0, List.take_succ_cons, List.take_zero]
  after_results; rfl

/-- The factor column from the degrees' buffer, by the remaining operations (the degrees an unopened array here: the
    comparison, the inverse square root and the selection are pointwise over it). -/
theorem h0_v15_tail : StableHlo.after ((hostOps0 (F := Ideal)).drop 13) W (Proc.devRef .tc main_call0_v15) = invColOf (W (Proc.devRef .tc main_call0_v10)) := by
  simp only [hostOps0, List.drop_succ_cons, List.drop_zero]
  after_results; rfl

theorem h0_v15 : StableHlo.after (hostOps0 (F := Ideal)) W (Proc.devRef .tc main_call0_v15) = invK (W (Proc.devRef .tc main_arg1)) := by
  rw [after_split 13, h0_v15_tail, h0_v10_head]
  rfl

theorem h0_v16 : StableHlo.after (hostOps0 (F := Ideal)) W (Proc.devRef .tc main_call0_v16) = trK (W (Proc.devRef .tc main_arg2)) := by
  after_results; rfl

theorem h1_v27 : StableHlo.after (hostOps1 (F := Ideal)) W (Proc.devRef .tc main_call0_v27)
    = aggHost (W (Proc.devRef .tc main_call0_v17)) (W (Proc.devRef .tc main_call0_v3)) (W (Proc.devRef .tc main_call0_v6)) := by
  after_results; rfl

theorem h1_v28 : StableHlo.after (hostOps1 (F := Ideal)) W (Proc.devRef .tc main_call0_v28) = biasRowK (W (Proc.devRef .tc main_arg3)) := by
  after_results; rfl

theorem h2_v30 : StableHlo.after (hostOps2 (F := Ideal)) W (Proc.devRef .tc main_call0_v30) = trK (W (Proc.devRef .tc main_arg4)) := by
  after_results; rfl

theorem h3_v41 : StableHlo.after (hostOps3 (F := Ideal)) W (Proc.devRef .tc main_call0_v41)
    = aggHost (W (Proc.devRef .tc main_call0_v31)) (W (Proc.devRef .tc main_call0_v3)) (W (Proc.devRef .tc main_call0_v6)) := by
  after_results; rfl

theorem h3_v42 : StableHlo.after (hostOps3 (F := Ideal)) W (Proc.devRef .tc main_call0_v42) = biasRowK (W (Proc.devRef .tc main_arg5)) := by
  after_results; rfl

end Host

/-! ## What each host stretch leaves alone -/

theorem keep_h0_main_arg0 (W : Valuation τ sig (Elt Ideal)) :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h0_main_arg3 (W : Valuation τ sig (Elt Ideal)) :
    StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h0_main_arg4 (W : Valuation τ sig (Elt Ideal)) :
    StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h0_main_arg5 (W : Valuation τ sig (Elt Ideal)) :
    StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h1_main_arg0 (W : Valuation τ sig (Elt Ideal)) :
    StableHlo.after (hostOps1 (F := Ideal)) W (Proc.devRef .tc main_arg0) = W (Proc.devRef .tc main_arg0) :=
  StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h1_main_call0_v15 (W : Valuation τ sig (Elt Ideal)) :
    StableHlo.after (hostOps1 (F := Ideal)) W (Proc.devRef .tc main_call0_v15) = W (Proc.devRef .tc main_call0_v15) :=
  StableHlo.after_of_forall_not_mem (b := Proc.devRef .tc main_call0_v15) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h1_main_call0_v3 (W : Valuation τ sig (Elt Ideal)) :
    StableHlo.after (hostOps1 (F := Ideal)) W (Proc.devRef .tc main_call0_v3) = W (Proc.devRef .tc main_call0_v3) :=
  StableHlo.after_of_forall_not_mem (b := Proc.devRef .tc main_call0_v3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h1_main_call0_v6 (W : Valuation τ sig (Elt Ideal)) :
    StableHlo.after (hostOps1 (F := Ideal)) W (Proc.devRef .tc main_call0_v6) = W (Proc.devRef .tc main_call0_v6) :=
  StableHlo.after_of_forall_not_mem (b := Proc.devRef .tc main_call0_v6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h1_main_arg4 (W : Valuation τ sig (Elt Ideal)) :
    StableHlo.after (hostOps1 (F := Ideal)) W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h1_main_arg5 (W : Valuation τ sig (Elt Ideal)) :
    StableHlo.after (hostOps1 (F := Ideal)) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h2_main_arg0 (W : Valuation τ sig (Elt Ideal)) :
    StableHlo.after (hostOps2 (F := Ideal)) W (Proc.devRef .tc main_arg0) = W (Proc.devRef .tc main_arg0) :=
  StableHlo.after_of_forall_not_mem (b := Proc.devRef .tc main_arg0) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h2_main_call0_v15 (W : Valuation τ sig (Elt Ideal)) :
    StableHlo.after (hostOps2 (F := Ideal)) W (Proc.devRef .tc main_call0_v15) = W (Proc.devRef .tc main_call0_v15) :=
  StableHlo.after_of_forall_not_mem (b := Proc.devRef .tc main_call0_v15) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h2_main_call0_v3 (W : Valuation τ sig (Elt Ideal)) :
    StableHlo.after (hostOps2 (F := Ideal)) W (Proc.devRef .tc main_call0_v3) = W (Proc.devRef .tc main_call0_v3) :=
  StableHlo.after_of_forall_not_mem (b := Proc.devRef .tc main_call0_v3) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h2_main_call0_v6 (W : Valuation τ sig (Elt Ideal)) :
    StableHlo.after (hostOps2 (F := Ideal)) W (Proc.devRef .tc main_call0_v6) = W (Proc.devRef .tc main_call0_v6) :=
  StableHlo.after_of_forall_not_mem (b := Proc.devRef .tc main_call0_v6) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h2_main_arg5 (W : Valuation τ sig (Elt Ideal)) :
    StableHlo.after (hostOps2 (F := Ideal)) W (Proc.devRef .tc main_arg5) = W (Proc.devRef .tc main_arg5) :=
  StableHlo.after_of_forall_not_mem (b := Proc.devRef .tc main_arg5) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h2_main_call0_v29 (W : Valuation τ sig (Elt Ideal)) :
    StableHlo.after (hostOps2 (F := Ideal)) W (Proc.devRef .tc main_call0_v29) = W (Proc.devRef .tc main_call0_v29) :=
  StableHlo.after_of_forall_not_mem (b := Proc.devRef .tc main_call0_v29) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h3_main_arg0 (W : Valuation τ sig (Elt Ideal)) :
    StableHlo.after (hostOps3 (F := Ideal)) W (Proc.devRef .tc main_arg0) = W (Proc.devRef .tc main_arg0) :=
  StableHlo.after_of_forall_not_mem (b := Proc.devRef .tc main_arg0) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_h3_main_call0_v15 (W : Valuation τ sig (Elt Ideal)) :
    StableHlo.after (hostOps3 (F := Ideal)) W (Proc.devRef .tc main_call0_v15) = W (Proc.devRef .tc main_call0_v15) :=
  StableHlo.after_of_forall_not_mem (b := Proc.devRef .tc main_call0_v15) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## What each region leaves alone -/

section Run

variable (m : (ℓ : Loc nD τ sig) → Buf (Elt Ideal) ℓ) (ρ : Dev nD → PrngReg)

theorem keep_r0_main_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem keep_r0_main_call0_v15 (c : Dev nD) : W2 m ρ c (Proc.devRef .tc main_call0_v15) = W1 m ρ c (Proc.devRef .tc main_call0_v15) :=
  (W2_arr m ρ c 2).trans (((dat0 (V1 m ρ) c).arrAt_in 2 rfl _).trans (A_eq0 (V1 m ρ) c 2))
theorem keep_r0_main_call0_v3 (c : Dev nD) : W2 m ρ c (Proc.devRef .tc main_call0_v3) = W1 m ρ c (Proc.devRef .tc main_call0_v3) :=
  W2_of_ne m ρ c main_call0_v3 (by decide)
theorem keep_r0_main_call0_v6 (c : Dev nD) : W2 m ρ c (Proc.devRef .tc main_call0_v6) = W1 m ρ c (Proc.devRef .tc main_call0_v6) :=
  W2_of_ne m ρ c main_call0_v6 (by decide)
theorem keep_r0_main_arg3 (c : Dev nD) : W2 m ρ c (Proc.devRef .tc main_arg3) = W1 m ρ c (Proc.devRef .tc main_arg3) :=
  W2_of_ne m ρ c main_arg3 (by decide)
theorem keep_r0_main_arg4 (c : Dev nD) : W2 m ρ c (Proc.devRef .tc main_arg4) = W1 m ρ c (Proc.devRef .tc main_arg4) :=
  W2_of_ne m ρ c main_arg4 (by decide)
theorem keep_r0_main_arg5 (c : Dev nD) : W2 m ρ c (Proc.devRef .tc main_arg5) = W1 m ρ c (Proc.devRef .tc main_arg5) :=
  W2_of_ne m ρ c main_arg5 (by decide)
theorem keep_r1_main_call0_v15 (c : Dev nD) : W4 m ρ c (Proc.devRef .tc main_call0_v15) = W3 m ρ c (Proc.devRef .tc main_call0_v15) :=
  (W4_arr m ρ c 1).trans (((dat1 (V3 m ρ) c).arrAt_in 1 rfl _).trans (A_eq1 (V3 m ρ) c 1))
theorem keep_r1_main_arg0 (c : Dev nD) : W4 m ρ c (Proc.devRef .tc main_arg0) = W3 m ρ c (Proc.devRef .tc main_arg0) :=
  W4_of_ne m ρ c main_arg0 (by decide)
theorem keep_r1_main_call0_v3 (c : Dev nD) : W4 m ρ c (Proc.devRef .tc main_call0_v3) = W3 m ρ c (Proc.devRef .tc main_call0_v3) :=
  W4_of_ne m ρ c main_call0_v3 (by decide)
theorem keep_r1_main_call0_v6 (c : Dev nD) : W4 m ρ c (Proc.devRef .tc main_call0_v6) = W3 m ρ c (Proc.devRef .tc main_call0_v6) :=
  W4_of_ne m ρ c main_call0_v6 (by decide)
theorem keep_r1_main_arg4 (c : Dev nD) : W4 m ρ c (Proc.devRef .tc main_arg4) = W3 m ρ c (Proc.devRef .tc main_arg4) :=
  W4_of_ne m ρ c main_arg4 (by decide)
theorem keep_r1_main_arg5 (c : Dev nD) : W4 m ρ c (Proc.devRef .tc main_arg5) = W3 m ρ c (Proc.devRef .tc main_arg5) :=
  W4_of_ne m ρ c main_arg5 (by decide)
theorem keep_r2_main_call0_v15 (c : Dev nD) : W6 m ρ c (Proc.devRef .tc main_call0_v15) = W5 m ρ c (Proc.devRef .tc main_call0_v15) :=
  (W6_arr m ρ c 2).trans (((dat2 (V5 m ρ) c).arrAt_in 2 rfl _).trans (A_eq2 (V5 m ρ) c 2))
theorem keep_r2_main_arg0 (c : Dev nD) : W6 m ρ c (Proc.devRef .tc main_arg0) = W5 m ρ c (Proc.devRef .tc main_arg0) :=
  W6_of_ne m ρ c main_arg0 (by decide)
theorem keep_r2_main_call0_v3 (c : Dev nD) : W6 m ρ c (Proc.devRef .tc main_call0_v3) = W5 m ρ c (Proc.devRef .tc main_call0_v3) :=
  W6_of_ne m ρ c main_call0_v3 (by decide)
theorem keep_r2_main_call0_v6 (c : Dev nD) : W6 m ρ c (Proc.devRef .tc main_call0_v6) = W5 m ρ c (Proc.devRef .tc main_call0_v6) :=
  W6_of_ne m ρ c main_call0_v6 (by decide)
theorem keep_r2_main_arg5 (c : Dev nD) : W6 m ρ c (Proc.devRef .tc main_arg5) = W5 m ρ c (Proc.devRef .tc main_arg5) :=
  W6_of_ne m ρ c main_arg5 (by decide)

end Run

end Cert.KernelIdeal.Val

end
-- ==== Proof.KCompose.lean ====
/-
  The kernel program's result buffer after its last region, as ONE function of the six argument arrays: the boundary
  contents are followed from the launch through the four host stretches and the four regions, each buffer either
  written by exactly one of them (and then read as that operation's function of what it read) or left alone.
-/
import proofs.«170651_j54700703482252_2_alg».proof.Proof.KHost

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- THE RESULT BUFFER at the last boundary is `kfun` of the argument arrays as launched. -/
theorem result_eq (c : Dev nD) :
    W8 m ρ c (Proc.devRef .tc main_v0)
      = kfun (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- boundary 1: after the first host stretch
  have a1_x : W1 m ρ c (Proc.devRef .tc main_arg0) = m ((c : Thread nD τ).loc main_arg0) := keep_h0_main_arg0 (W0 m ρ c)
  have a1_b1 : W1 m ρ c (Proc.devRef .tc main_arg3) = m ((c : Thread nD τ).loc main_arg3) := keep_h0_main_arg3 (W0 m ρ c)
  have a1_w2 : W1 m ρ c (Proc.devRef .tc main_arg4) = m ((c : Thread nD τ).loc main_arg4) := keep_h0_main_arg4 (W0 m ρ c)
  have a1_b2 : W1 m ρ c (Proc.devRef .tc main_arg5) = m ((c : Thread nD τ).loc main_arg5) := keep_h0_main_arg5 (W0 m ρ c)
  have a1_row : W1 m ρ c (Proc.devRef .tc main_call0_v3) = rowK (m ((c : Thread nD τ).loc main_arg1)) := h0_v3 (W0 m ρ c)
  have a1_col : W1 m ρ c (Proc.devRef .tc main_call0_v6) = colK (m ((c : Thread nD τ).loc main_arg1)) := h0_v6 (W0 m ρ c)
  have a1_inv : W1 m ρ c (Proc.devRef .tc main_call0_v15) = invK (m ((c : Thread nD τ).loc main_arg1)) := h0_v15 (W0 m ρ c)
  have a1_wt : W1 m ρ c (Proc.devRef .tc main_call0_v16) = trK (m ((c : Thread nD τ).loc main_arg2)) := h0_v16 (W0 m ρ c)
  -- boundary 2: after the first region
  have a2_h : W2 m ρ c (Proc.devRef .tc main_call0_v17) = scaledMM (m ((c : Thread nD τ).loc main_arg0)) (trK (m ((c : Thread nD τ).loc main_arg2))) (invK (m ((c : Thread nD τ).loc main_arg1))) :=
    (W2_arr m ρ c 3).trans ((final0 (V1 m ρ) c).trans (congr (congr (congrArg scaledMM a1_x) a1_wt) a1_inv))
  have a2_x := (keep_r0_main_arg0 m ρ c).trans a1_x
  have a2_b1 := (keep_r0_main_arg3 m ρ c).trans a1_b1
  have a2_w2 := (keep_r0_main_arg4 m ρ c).trans a1_w2
  have a2_b2 := (keep_r0_main_arg5 m ρ c).trans a1_b2
  have a2_row := (keep_r0_main_call0_v3 m ρ c).trans a1_row
  have a2_col := (keep_r0_main_call0_v6 m ρ c).trans a1_col
  have a2_inv := (keep_r0_main_call0_v15 m ρ c).trans a1_inv
  -- boundary 3: after the second host stretch
  have a3_s : W3 m ρ c (Proc.devRef .tc main_call0_v27) = aggHost _ _ _ :=
    (h1_v27 (W2 m ρ c)).trans (congr (congr (congrArg aggHost a2_h) a2_row) a2_col)
  have a3_b : W3 m ρ c (Proc.devRef .tc main_call0_v28) = biasRowK (m ((c : Thread nD τ).loc main_arg3)) :=
    (h1_v28 (W2 m ρ c)).trans (congrArg biasRowK a2_b1)
  have a3_x := (keep_h1_main_arg0 (W2 m ρ c)).trans a2_x
  have a3_w2 := (keep_h1_main_arg4 (W2 m ρ c)).trans a2_w2
  have a3_b2 := (keep_h1_main_arg5 (W2 m ρ c)).trans a2_b2
  have a3_row := (keep_h1_main_call0_v3 (W2 m ρ c)).trans a2_row
  have a3_col := (keep_h1_main_call0_v6 (W2 m ρ c)).trans a2_col
  have a3_inv := (keep_h1_main_call0_v15 (W2 m ρ c)).trans a2_inv
  -- boundary 4: after the second region
  have a4_h : W4 m ρ c (Proc.devRef .tc main_call0_v29) = biasRelu _ _ _ :=
    (W4_arr m ρ c 3).trans ((final1 (V3 m ρ) c).trans (congr (congr (congrArg biasRelu a3_s) a3_inv) a3_b))
  have a4_x := (keep_r1_main_arg0 m ρ c).trans a3_x
  have a4_w2 := (keep_r1_main_arg4 m ρ c).trans a3_w2
  have a4_b2 := (keep_r1_main_arg5 m ρ c).trans a3_b2
  have a4_row := (keep_r1_main_call0_v3 m ρ c).trans a3_row
  have a4_col := (keep_r1_main_call0_v6 m ρ c).trans a3_col
  have a4_inv := (keep_r1_main_call0_v15 m ρ c).trans a3_inv
  -- boundary 5: after the third host stretch
  have a5_wt : W5 m ρ c (Proc.devRef .tc main_call0_v30) = trK (m ((c : Thread nD τ).loc main_arg4)) :=
    (h2_v30 (W4 m ρ c)).trans (congrArg trK a4_w2)
  have a5_h := (keep_h2_main_call0_v29 (W4 m ρ c)).trans a4_h
  have a5_x := (keep_h2_main_arg0 (W4 m ρ c)).trans a4_x
  have a5_b2 := (keep_h2_main_arg5 (W4 m ρ c)).trans a4_b2
  have a5_row := (keep_h2_main_call0_v3 (W4 m ρ c)).trans a4_row
  have a5_col := (keep_h2_main_call0_v6 (W4 m ρ c)).trans a4_col
  have a5_inv := (keep_h2_main_call0_v15 (W4 m ρ c)).trans a4_inv
  -- boundary 6: after the third region
  have a6_h : W6 m ρ c (Proc.devRef .tc main_call0_v31) = scaledMM _ _ _ :=
    (W6_arr m ρ c 3).trans ((final2 (V5 m ρ) c).trans (congr (congr (congrArg scaledMM a5_h) a5_wt) a5_inv))
  have a6_x := (keep_r2_main_arg0 m ρ c).trans a5_x
  have a6_b2 := (keep_r2_main_arg5 m ρ c).trans a5_b2
  have a6_row := (keep_r2_main_call0_v3 m ρ c).trans a5_row
  have a6_col := (keep_r2_main_call0_v6 m ρ c).trans a5_col
  have a6_inv := (keep_r2_main_call0_v15 m ρ c).trans a5_inv
  -- boundary 7: after the fourth host stretch
  have a7_s : W7 m ρ c (Proc.devRef .tc main_call0_v41) = aggHost _ _ _ :=
    (h3_v41 (W6 m ρ c)).trans (congr (congr (congrArg aggHost a6_h) a6_row) a6_col)
  have a7_b : W7 m ρ c (Proc.devRef .tc main_call0_v42) = biasRowK (m ((c : Thread nD τ).loc main_arg5)) :=
    (h3_v42 (W6 m ρ c)).trans (congrArg biasRowK a6_b2)
  have a7_x := (keep_h3_main_arg0 (W6 m ρ c)).trans a6_x
  have a7_inv := (keep_h3_main_call0_v15 (W6 m ρ c)).trans a6_inv
  -- boundary 8: after the fourth region
  exact (W8_arr m ρ c 4).trans ((final3 (V7 m ρ) c).trans (congr (congr (congr (congrArg biasRes a7_s) a7_inv) a7_b) a7_x))

end Cert.KernelIdeal.Val

end
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.LibScatterAdd.lean ====
/-
  A float scatter-add on the host (jax's `.at[idx].add(v)`, `jax.ops.segment_sum`), read at the exact instance by
  coordinates.

  The exact instance gives a scatter-add as: each operand element plus the sum of the update elements whose
  result index is that element, the start index read signed and not clamped, an update that lands outside the
  operand dropped. For the two layouts a segment sum prints in — a vector of updates `[E]` added into a vector
  `[N]`, and rows `[E, C]` added into a matrix `[N, C]`, both at start indices `[E, 1]` along axis 0 — this file
  says when update `e` lands on element `n` (exactly when the signed start index of `e` is `n`), and reads the
  scatter at an index as the operand there plus `∑ e, if start e = n then update e else 0`.

  The last lemma is the counting fact a full sum over segments rests on: when every key lies in `[0, N)`, the
  segment sums over all `N` segments add up to the plain sum of the updates.

  Everything is stated for any dimension-number record with the printed list fields (each hypothesis is closed
  by `rfl` at a printed record) and any extents `N`, `E`, `C`.
-/
import Idealize.ShloMosaic.PureOps.Ideal
import Idealize.ShloMosaic.PureOps.Ideal.Laws
import Idealize.ShloMosaic.Lib.ValueIdx

noncomputable section
open Idealize.ShloMosaic Idealize.ShloMosaic.ValueIdx

namespace Cert.LibScatterAdd

variable {N E C : Nat}

/-! ## A vector operand: updates `[E]` added into `[N]` at `[E, 1]` start indices -/

section Vec

variable (d : ScatterDims ⟨1, ![N]⟩ ⟨2, ![E, 1]⟩ ⟨1, ![E]⟩)
  (huw : d.updateWindowDims = []) (hiw : d.insertedWindowDims = [0]) (hsd : d.scatterDimsToOperandDims = [0])
  (hiv : d.indexVectorDim = 1)
include huw hiw hsd hiv

/-- The window of update `j` starts at the signed value of start index `(j, 0)`. -/
theorem start_vec {w : Nat} (j : (⟨1, ![E]⟩ : Shape).Idx) (idx : IVec ⟨2, ![E, 1]⟩ w) (a : Fin 1) :
    d.start j idx a = (idx (ix2 (j 0) 0)).toInt := by
  obtain ⟨uw, iw, sdto, ivd, wf⟩ := d
  simp only at huw hiw hsd hiv
  subst huw hiw hsd hiv
  have ha : a = 0 := Subsingleton.elim _ _
  subst ha
  unfold ScatterDims.start
  simp only [List.mem_singleton, dite_true]
  refine congrArg (fun k => (idx k).toInt) ?_
  funext b
  match b with
  | ⟨0, _⟩ => rfl
  | ⟨1, _⟩ => rfl

/-- The operand's one axis is an inserted window axis: the window coordinate on it is zero. -/
theorem window_vec (j : (⟨1, ![E]⟩ : Shape).Idx) (a : Fin 1) : d.window j a = 0 := by
  obtain ⟨uw, iw, sdto, ivd, wf⟩ := d
  simp only at huw hiw hsd hiv
  subst huw hiw hsd hiv
  have ha : a = 0 := Subsingleton.elim _ _
  subst ha
  unfold ScatterDims.window
  rw [dif_neg]
  simp [ScatterDims.sKept, Shape.kept]

/-- Update `j` lands on element `i` exactly when its signed start index is `i` (an index outside `[0, N)` lands
    nowhere). -/
theorem resultIdx?_vec {w : Nat} (j : (⟨1, ![E]⟩ : Shape).Idx) (idx : IVec ⟨2, ![E, 1]⟩ w) (i : (⟨1, ![N]⟩ : Shape).Idx) :
    d.resultIdx? j idx = some i ↔ (idx (ix2 (j 0) 0)).toInt = ((i 0).val : Int) := by
  have hs := start_vec d huw hiw hsd hiv j idx
  have hw := window_vec d huw hiw hsd hiv j
  unfold ScatterDims.resultIdx?
  split
  · rename_i h
    rw [Option.some.injEq]
    constructor
    · intro hf
      have h0 := congrArg (fun f => ((f 0 : Fin N) : Nat)) hf
      simp only [hs, hw] at h0 h
      have := (h 0).1
      omega
    · intro hv
      funext a
      have ha : a = 0 := Subsingleton.elim _ _
      subst ha
      apply Fin.ext
      simp only [hs, hw]
      omega
  · rename_i h
    constructor
    · intro hf; exact absurd hf (by simp)
    · intro hv
      exfalso; apply h
      intro a
      have ha : a = 0 := Subsingleton.elim _ _
      subst ha
      rw [hs, hw]
      have hlt : ((i 0).val : Nat) < N := (i 0).isLt
      constructor
      · omega
      · show _ < ((N : Nat) : Int)
        omega

/-- Rank-1 indices are the positions. -/
def idx1Equiv (n : Nat) : (⟨1, ![n]⟩ : Shape).Idx ≃ Fin n where
  toFun j := j 0
  invFun := ix1
  left_inv j := (eq_ix1 j).symm
  right_inv _ := rfl

/-- The scatter-add of a vector of updates, at element `i`: the operand there plus the updates whose signed start
    index is `i`. -/
theorem scatterAdd_vec_apply {w : Nat} {φ : FTy} (x : FVec Ideal ⟨1, ![N]⟩ φ) (idx : IVec ⟨2, ![E, 1]⟩ w)
    (upd : FVec Ideal ⟨1, ![E]⟩ φ) (i : (⟨1, ![N]⟩ : Shape).Idx) :
    Host.scatterAdd (F := Ideal) d x idx upd i
      = x i + ∑ e : Fin E, if (idx (ix2 e 0)).toInt = ((i 0).val : Int) then upd (ix1 e) else 0 := by
  unfold Host.scatterAdd
  rw [Ideal.hostScatterAdd_def]
  unfold Ideal.hostScatterAdd
  congr 1
  rw [Finset.sum_filter]
  refine Fintype.sum_equiv (idx1Equiv E) _ _ (fun j => ?_)
  simp only [resultIdx?_vec d huw hiw hsd hiv j idx i]
  rw [eq_ix1 j]
  rfl

end Vec

/-! ## A matrix operand: rows `[E, C]` added into `[N, C]` at `[E, 1]` start rows -/

section Rows

variable (d : ScatterDims ⟨2, ![N, C]⟩ ⟨2, ![E, 1]⟩ ⟨2, ![E, C]⟩)
  (huw : d.updateWindowDims = [1]) (hiw : d.insertedWindowDims = [0]) (hsd : d.scatterDimsToOperandDims = [0])
  (hiv : d.indexVectorDim = 1)
include huw hiw hsd hiv

/-- On the row axis the window of update `j` starts at the signed value of start index `(j 0, 0)`. -/
theorem start_rows0 {w : Nat} (j : (⟨2, ![E, C]⟩ : Shape).Idx) (idx : IVec ⟨2, ![E, 1]⟩ w) :
    d.start j idx 0 = (idx (ix2 (j 0) 0)).toInt := by
  obtain ⟨uw, iw, sdto, ivd, wf⟩ := d
  simp only at huw hiw hsd hiv
  subst huw hiw hsd hiv
  unfold ScatterDims.start
  simp only [List.mem_singleton, dite_true]
  refine congrArg (fun k => (idx k).toInt) ?_
  funext b
  match b with
  | ⟨0, _⟩ => rfl
  | ⟨1, _⟩ => rfl

/-- On the column axis, which the start indices do not name, the window starts at zero. -/
theorem start_rows1 {w : Nat} (j : (⟨2, ![E, C]⟩ : Shape).Idx) (idx : IVec ⟨2, ![E, 1]⟩ w) :
    d.start j idx 1 = 0 := by
  obtain ⟨uw, iw, sdto, ivd, wf⟩ := d
  simp only at huw hiw hsd hiv
  subst huw hiw hsd hiv
  unfold ScatterDims.start
  rw [dif_neg]
  simp

/-- The row axis is an inserted window axis: the window coordinate on it is zero. -/
theorem window_rows0 (j : (⟨2, ![E, C]⟩ : Shape).Idx) : d.window j 0 = 0 := by
  obtain ⟨uw, iw, sdto, ivd, wf⟩ := d
  simp only at huw hiw hsd hiv
  subst huw hiw hsd hiv
  unfold ScatterDims.window
  rw [dif_neg]
  simp [ScatterDims.sKept, Shape.kept]

/-- The column axis carries the update's window: the window coordinate on it is the update's column. -/
theorem window_rows1 (j : (⟨2, ![E, C]⟩ : Shape).Idx) : d.window j 1 = (j 1).val := by
  obtain ⟨uw, iw, sdto, ivd, wf⟩ := d
  simp only at huw hiw hsd hiv
  subst huw hiw hsd hiv
  unfold ScatterDims.window
  rw [dif_pos (by simp [ScatterDims.sKept, Shape.kept])]
  rfl

/-- Update `(e, q)` lands on element `(n, c)` exactly when the signed start index of row `e` is `n` and `q = c`. -/
theorem resultIdx?_rows {w : Nat} (j : (⟨2, ![E, C]⟩ : Shape).Idx) (idx : IVec ⟨2, ![E, 1]⟩ w)
    (i : (⟨2, ![N, C]⟩ : Shape).Idx) :
    d.resultIdx? j idx = some i ↔ (idx (ix2 (j 0) 0)).toInt = ((i 0).val : Int) ∧ j 1 = i 1 := by
  have hs0 := start_rows0 d huw hiw hsd hiv j idx
  have hs1 := start_rows1 d huw hiw hsd hiv j idx
  have hw0 := window_rows0 d huw hiw hsd hiv j
  have hw1 := window_rows1 d huw hiw hsd hiv j
  have hi0 : ((i 0).val : Nat) < N := (i 0).isLt
  have hj1 : ((j 1).val : Nat) < C := (j 1).isLt
  unfold ScatterDims.resultIdx?
  split
  · rename_i h
    rw [Option.some.injEq]
    constructor
    · intro hf
      have h0 := congrArg (fun f => ((f 0 : Fin N) : Nat)) hf
      have h1 := congrArg (fun f => ((f 1 : Fin C) : Nat)) hf
      simp only [hs0, hs1, hw0, hw1] at h0 h1
      have := (h 0).1
      rw [hs0, hw0] at this
      refine ⟨by omega, Fin.ext ?_⟩
      show ((j 1).val : Nat) = (i 1).val
      omega
    · rintro ⟨hv, h1⟩
      have h1' : ((j 1).val : Nat) = (i 1).val := congrArg Fin.val h1
      funext a
      match a with
      | ⟨0, _⟩ =>
        apply Fin.ext
        show (d.start j idx 0 + ((d.window j 0 : Nat) : Int)).toNat = (i 0).val
        rw [hs0, hw0]; omega
      | ⟨1, _⟩ =>
        apply Fin.ext
        show (d.start j idx 1 + ((d.window j 1 : Nat) : Int)).toNat = (i 1).val
        rw [hs1, hw1]; omega
  · rename_i h
    constructor
    · intro hf; exact absurd hf (by simp)
    · rintro ⟨hv, h1⟩
      exfalso; apply h
      intro a
      match a with
      | ⟨0, _⟩ =>
        show 0 ≤ d.start j idx 0 + ((d.window j 0 : Nat) : Int) ∧ d.start j idx 0 + ((d.window j 0 : Nat) : Int) < ((N : Nat) : Int)
        rw [hs0, hw0]; omega
      | ⟨1, _⟩ =>
        show 0 ≤ d.start j idx 1 + ((d.window j 1 : Nat) : Int) ∧ d.start j idx 1 + ((d.window j 1 : Nat) : Int) < ((C : Nat) : Int)
        rw [hs1, hw1]; omega

/-- The scatter-add of rows, at element `(n, c)`: the operand there plus column `c` of the update rows whose signed
    start index is `n`. -/
theorem scatterAdd_rows_apply {w : Nat} {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl (fun e _ => ?_)
  have hiff := fun b : Fin C => resultIdx?_rows d huw hiw hsd hiv (ix2 e b) idx (ix2 n c)
  by_cases hA : (idx (ix2 e 0)).toInt = (n.val : Int)
  · rw [if_pos hA, Finset.sum_eq_single c]
    · exact if_pos ((hiff c).2 ⟨hA, rfl⟩)
    · intro b _ hbc
      exact if_neg (fun h => hbc ((hiff b).1 h).2)
    · intro h; exact absurd (Finset.mem_univ c) h
  · rw [if_neg hA]
    exact Finset.sum_eq_zero (fun b _ => if_neg (fun h => hA ((hiff b).1 h).1))

end Rows

/-! ## Summing a segment sum over all segments -/

/-- When every key lies in `[0, N)`, the segment sums over all `N` segments add up to the sum of all the
    updates: each update is counted in exactly one segment. -/
theorem sum_segments {M : Type*} [AddCommMonoid M] (k : Fin E → Int) (u : Fin E → M)
    (hk : ∀ e, 0 ≤ k e ∧ k e < (N : Int)) :
    ∑ n : Fin N, ∑ e : Fin E, (if k e = (n.val : Int) then u e else 0) = ∑ e : Fin E, u e := by
  rw [Finset.sum_comm]
  refine Finset.sum_congr rfl (fun e _ => ?_)
  obtain ⟨h0, h1⟩ := hk e
  have hlt : (k e).toNat < N := by omega
  have hiff : ∀ n : Fin N, (k e = (n.val : Int)) ↔ n = ⟨(k e).toNat, hlt⟩ := fun n =>
    ⟨fun h => Fin.ext (by show n.val = (k e).toNat; omega), fun h => by rw [h]; show k e = (((k e).toNat : Nat) : Int); omega⟩
  simp only [hiff, Finset.sum_ite_eq', Finset.mem_univ, if_true]

end Cert.LibScatterAdd
-- ==== Proof.KBridge.lean ====
/-
  The kernel program's result, read by coordinates, is the network in its source-scaled form: per layer the rows of the
  scaled product gathered along the edges and added up at the edges' keys are, at node `n` and feature `c`, the sum
  over the edges whose key is `n` of `(h · Wᵀ)(source, c) · inv(source)`; the epilogue multiplies that by `inv(n)`,
  adds the bias and clamps at zero (layer one) or adds the residual (layer two).
-/
import proofs.«170651_j54700703482252_2_alg».proof.Proof.KHost
import proofs.«170651_j54700703482252_2_alg».proof.Proof.LibGatherRows
import proofs.«170651_j54700703482252_2_alg».proof.Proof.LibScatterAdd
import Idealize.ShloMosaic.Lib.Pipeline.Value

set_option maxRecDepth 16384

noncomputable section

open Idealize.ShloMosaic Idealize.ShloMosaic.ValueIdx

namespace Cert.KernelIdeal.Val

open Cert.KernelIdeal Cert.KernelIdeal.Gen Cert.Gcn

/-- The bias row at column `c` is the bias at `c`. -/
theorem biasRowK_apply (b : S128.Idx → EReal) (c : Fin 128) : biasRowK b (ix2 (0 : Fin 1) c) = b (ix1 c) :=
  shapeCast_apply b shapeCasts_S128_S1x128 _ _ (by
    rw [Shape.rowMajor_val_two, Shape.rowMajor_val_one]
    show c.val = 0 * 128 + c.val
    omega)

/-- One layer's traffic, then the destination's factor: the source-scaled aggregation. -/
theorem aggHost_apply (X : S50000x128.Idx → EReal) (WT : S128x128.Idx → EReal) (inv : S50000x1.Idx → EReal)
    (row col : IVec S1650000 32) (n : Fin 50000) (c : Fin 128) :
    aggHost (scaledMM X WT inv) row col (ix2 n c) * inv (ix2 n (0 : Fin 1))
      = aggK (keyOf (cidxK col)) (rowOf (by decide : 0 < 50000) (ridxK row)) (fun k => inv (ix2 k (0 : Fin 1))) (mm X WT) n c := by
  unfold aggHost aggK
  refine congrArg (· * inv (ix2 n (0 : Fin 1))) ?_
  refine (Cert.LibScatterAdd.scatterAdd_rows_apply scatter_S50000x128_S1650000x1_S1650000x128_1_0_0_1 rfl rfl rfl rfl _ _ _ n c).trans ?_
  refine congrArg₂ (· + ·) rfl (Finset.sum_congr rfl fun e _ => ?_)
  refine if_congr Iff.rfl ?_ rfl
  refine ((show Host.gather gather_S50000x128_S1650000x1_S1650000x128_1_0_n_n_0_1_1128 (scaledMM X WT inv) (ridxK row) (ix2 e c)
      = Host.gather (Cert.Lib.GatherRows.rowDims 50000 128 1650000 gather_S50000x128_S1650000x1_S1650000x128_1_0_n_n_0_1_1128_wf) (scaledMM X WT inv) (ridxK row) (ix2 e c) from rfl).trans
    (Cert.Lib.GatherRows.gather_rows_apply gather_S50000x128_S1650000x1_S1650000x128_1_0_n_n_0_1_1128_wf (scaledMM X WT inv) (ridxK row) e c
      (rowOf (by decide : 0 < 50000) (ridxK row) e) rfl)).trans ?_
  exact scaledMM_ix2 X WT inv _ c

/-- The first layer by coordinates. -/
theorem layer1_form (X : S50000x128.Idx → EReal) (WT : S128x128.Idx → EReal) (inv : S50000x1.Idx → EReal)
    (row col : IVec S1650000 32) (b : S128.Idx → EReal) :
    biasRelu (aggHost (scaledMM X WT inv) row col) inv (biasRowK b)
      = arr (layer1 (aggK (keyOf (cidxK col)) (rowOf (by decide : 0 < 50000) (ridxK row)) (fun k => inv (ix2 k (0 : Fin 1))) (mm X WT)) (fun c => b (ix1 c))) := by
  funext i
  obtain ⟨n, c, rfl⟩ : ∃ (n : Fin 50000) (c : Fin 128), i = ix2 n c := ⟨i 0, i 1, eq_ix2 i⟩
  rw [biasRelu_ix2, aggHost_apply, biasRowK_apply]
  rfl

/-- The second layer by coordinates. -/
theorem layer2_form (X : S50000x128.Idx → EReal) (WT : S128x128.Idx → EReal) (inv : S50000x1.Idx → EReal)
    (row col : IVec S1650000 32) (b : S128.Idx → EReal) (x : S50000x128.Idx → EReal) :
    biasRes (aggHost (scaledMM X WT inv) row col) inv (biasRowK b) x
      = arr (layer2 (aggK (keyOf (cidxK col)) (rowOf (by decide : 0 < 50000) (ridxK row)) (fun k => inv (ix2 k (0 : Fin 1))) (mm X WT)) (fun c => b (ix1 c))
          (fun n c => x (ix2 n c))) := by
  funext i
  obtain ⟨n, c, rfl⟩ : ∃ (n : Fin 50000) (c : Fin 128), i = ix2 n c := ⟨i 0, i 1, eq_ix2 i⟩
  rw [biasRes_ix2, aggHost_apply, biasRowK_apply]
  rfl

/-- THE KERNEL PROGRAM'S RESULT is the network in its source-scaled form. -/
theorem kfun_eq (x : S50000x128.Idx → EReal) (E : IVec S2x1600000 32) (W1 : S128x128.Idx → EReal) (b1 : S128.Idx → EReal)
    (W2 : S128x128.Idx → EReal) (b2 : S128.Idx → EReal) :
    kfun x E W1 b1 W2 b2
      = arr (netK (keyOf (cidxK (colK E))) (rowOf (by decide : 0 < 50000) (ridxK (rowK E))) (fun k => invK E (ix2 k (0 : Fin 1)))
          x (trK W1) (trK W2) (fun c => b1 (ix1 c)) (fun c => b2 (ix1 c))) := by
  unfold kfun netK
  rw [layer1_form, layer2_form]

end Cert.KernelIdeal.Val

end
-- ==== Proof.LibGatherVec.lean ====
/-
  A general lemma: `stablehlo.gather` of single ELEMENTS of a rank-1 operand, read at an index.

  What `v[idx]` / `jnp.take(v, idx)` of a vector `v : [N]` at an integer vector `idx : [R]` lowers to: a gather with
  offset_dims `[]`, collapsed_slice_dims `[0]`, start_index_map `[0]`, index_vector_dim `1` and slice sizes `[1]` over
  the indices as a column `[R, 1]`. Result element `t` is `v` at `idx[t, 0]` — read as a signed integer and clamped
  into `[0, N − 1]`, as the gather clamps every start index: the operand's one axis is collapsed, so the clamped start
  index is the whole coordinate.
-/
import Idealize.ShloMosaic.PureOps
import Idealize.ShloMosaic.Lib.ValueIdx

noncomputable section

namespace Cert.LibGatherVec

open Idealize.ShloMosaic Idealize.ShloMosaic.ValueIdx

variable {α : Type}

/-- Those dimension numbers for an operand `[N]`, start indices `[R, 1]` and result `[R]`; their conditions `wf` are
    decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER OF ELEMENTS READ AT `t`: the operand at `r`, the start index `idx[t, 0]` read signed and clamped into
    `[0, N − 1]`. The position is a variable with its defining equation, so that a user substitutes the position it has
    computed without rewriting under an index's bound proof. -/
theorem gather_vec_apply {N R w : Nat}
    (wf : GatherDims.WF ⟨1, ![N]⟩ ⟨2, ![R, 1]⟩ ⟨1, ![R]⟩ [] [0] [] [0] [] 1 ![1])
    (v : (⟨1, ![N]⟩ : Shape).Idx → α) (idx : IVec ⟨2, ![R, 1]⟩ w) (t : Fin R) (r : Fin N)
    (hr : r.val = min (idx (ix2 t (0 : Fin 1))).toInt.toNat (N - 1)) :
    Host.gather (vecDims N R wf) v idx (ix1 t) = v (ix1 r) := by
  unfold Host.gather
  refine congrArg v (funext fun a => Fin.ext ?_)
  obtain rfl : a = 0 := Subsingleton.elim _ _
  show (vecDims N R wf).start (ix1 t) idx 0 + (vecDims N R wf).batchCoord (ix1 t) 0 + (vecDims N R wf).offCoord (ix1 t) 0 = r.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 t) ⟨List.idxOf (0 : Fin 1) (vecDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi, hr]
  rfl

end Cert.LibGatherVec

end
-- ==== Proof.RefSide.lean ====
/-
  The reference side of a two-layer graph convolution with symmetric degree normalisation, read by coordinates at the
  exact (extended-real) values.

  Each layer of the reference program joins the edge list with one self-loop per node, counts the edges arriving at
  every node (the degree), takes the masked inverse square root of the degree as the node's factor, weights edge `e`
  by the product of the factors of its two ends, multiplies the features by a transposed weight matrix, sends the
  product's row of the source along every edge scaled by the edge's weight, adds at every node what arrives there,
  and adds a bias; the first layer then clamps below at zero, the second adds the input back.

  This file reads the operations whose element depends on the VALUES of an index array — the two kinds of gather and
  the scatter-add of rows — at an index, and chains them with the generated per-operation readings into one
  statement: the program's result is the edge-weighted network of the shared specification, over
    • the signed key of each edge (the column the scatter reads, not clamped),
    • the source row and the destination row of each edge (the columns the gathers read: wrapped when negative,
      then clamped into the node range),
    • the factor vector,
  all four left as the program computes them from the edge array. Two facts about them are all the specification's law asks:
  a factor is nonnegative and finite, and an edge whose key is node `n` reads its destination factor at `n`.
-/
import proofs.«170651_j54700703482252_2_alg».proof.Proof.RefReadP
import proofs.«170651_j54700703482252_2_alg».proof.Proof.GcnLaw
import proofs.«170651_j54700703482252_2_alg».proof.Proof.LibGatherRows
import proofs.«170651_j54700703482252_2_alg».proof.Proof.LibGatherVec
import proofs.«170651_j54700703482252_2_alg».proof.Proof.LibScatterAdd
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.ReadP Idealize.ShloMosaic Idealize.ShloMosaic.ValueIdx

/-! ## The index columns and the factor vector, as the program computes them from the edge array -/

/-- The scatter's start indices: the destination of every edge (self-loops included), as a column. -/
def cidx (E : IVec S2x1600000 32) : IVec S1650000x1 32 := val_main_v43 (F := Ideal) E
/-- The row gather's start indices: the source of every edge, a negative one wrapped, as a column. -/
def ridx (E : IVec S2x1600000 32) : IVec S1650000x1 32 := val_main_v37 (F := Ideal) E
/-- The destination of every edge, a negative one wrapped, as a column. -/
def cnidx (E : IVec S2x1600000 32) : IVec S1650000x1 32 := val_main_v27 (F := Ideal) E
/-- The factor vector: the masked inverse square root of every node's degree. -/
def invv (E : IVec S2x1600000 32) : S50000.Idx → EReal := val_main_v14 (F := Ideal) E

/-! ## A gather of single elements of a vector, read at an index -/

/-- The gather of elements of a vector `[50000]` at a column `[1650000, 1]` of start indices, at position `t`: the
    vector at `r`, the start index `idx[t, 0]` read signed and clamped into `[0, 49999]`. The one operand axis is
    collapsed (no offset) and not a batching axis, so the operand coordinate is the clamped start alone. -/
theorem gather_vec_apply {α : Type} {w : Nat} (v : S50000.Idx → α) (idx : IVec S1650000x1 w) (t : Fin 1650000)
    (r : Fin 50000) (hr : r.val = min (idx (ix2 t (0 : Fin 1))).toInt.toNat (50000 - 1)) :
    Host.gather gather_S50000_S1650000x1_S1650000_n_0_n_n_0_1_1 v idx (ix1 t) = v (ix1 r) :=
  (show Host.gather gather_S50000_S1650000x1_S1650000_n_0_n_n_0_1_1 v idx (ix1 t)
      = Host.gather (Cert.LibGatherVec.vecDims 50000 1650000 gather_S50000_S1650000x1_S1650000_n_0_n_n_0_1_1_wf) v idx (ix1 t) from rfl).trans
    (Cert.LibGatherVec.gather_vec_apply gather_S50000_S1650000x1_S1650000_n_0_n_n_0_1_1_wf v idx t r hr)

/-! ## The two facts the specification's law asks of the keys, rows and factors -/

/-- Position `(e, 0)` of a column broadcast from a vector reads the vector at `e`. -/
theorem col_idx (e : Fin 1650000) : idx_main_v43 (ix2 e (0 : Fin 1)) = ix1 e := by
  funext a; match a with | ⟨0, _⟩ => rfl

/-- The factor of node `n` is the masked inverse square root of its degree. -/
theorem invv_eq (E : IVec S2x1600000 32) (n : Fin 50000) :
    invv E (ix1 n) = Cert.Gcn.invOf (val_main_v10 (F := Ideal) E (ix1 n)) := by
  unfold invv
  rw [val_main_v14_apply, val_main_v12_apply, val_main_v13_apply, val_main_v11_apply, val_main_cst_1_apply,
    val_main_call0_v1_apply, val_main_call0_v0_apply, val_main_cst_2_apply]
  generalize val_main_v10 (F := Ideal) E (ix1 n) = d
  rfl

/-- A factor is nonnegative and finite. -/
theorem invv_nonneg_fin (E : IVec S2x1600000 32) (n : Fin 50000) : 0 ≤ invv E (ix1 n) ∧ invv E (ix1 n) ≠ ⊤ := by
  rw [invv_eq]
  exact Cert.Gcn.invOf_nonneg_fin _

/-- A nonnegative index is not wrapped: the comparison with zero is false and the select keeps it. -/
theorem wrap_of_nonneg (c : BitVec 32) (h : 0 ≤ c.toInt) :
    Scalar.select (IntOp.cmpi .slt c 0#32) (IntOp.addi c 50000#32) c = c := by
  have hs : c.slt 0#32 = false := by
    rw [BitVec.slt_eq_decide, BitVec.toInt_zero]
    exact decide_eq_false (by omega)
  unfold IntOp.cmpi
  simp only [hs, BitVec.ofBool_false]
  exact select_zero _ _

/-- The scatter's key of edge `e` is the destination vector at `e`. -/
theorem cidx_apply (E : IVec S2x1600000 32) (e : Fin 1650000) :
    cidx E (ix2 e (0 : Fin 1)) = val_main_v6 (F := Ideal) E (ix1 e) := by
  unfold cidx
  rw [val_main_v43_apply, col_idx]

/-- The wrapped destination of edge `e`: the destination vector at `e`, plus the node count when negative. -/
theorem cnidx_apply (E : IVec S2x1600000 32) (e : Fin 1650000) :
    cnidx E (ix2 e (0 : Fin 1))
      = Scalar.select (IntOp.cmpi .slt (val_main_v6 (F := Ideal) E (ix1 e)) 0#32)
          (IntOp.addi (val_main_v6 (F := Ideal) E (ix1 e)) 50000#32) (val_main_v6 (F := Ideal) E (ix1 e)) := by
  unfold cnidx
  have hi : idx_main_v27 (ix2 e (0 : Fin 1)) = ix1 e := by
    funext a; match a with | ⟨0, _⟩ => rfl
  rw [val_main_v27_apply, hi, val_main_v26_apply, val_main_v23_apply, val_main_v25_apply, val_main_v22_apply,
    val_main_c_4_apply, val_main_v24_apply, val_main_c_5_apply]

/-- An edge whose key is node `n` reads its destination factor at `n`: the key is then nonnegative, so the
    destination is not wrapped, and it is below the node count, so the clamp keeps it. -/
theorem cn_of_key (E : IVec S2x1600000 32) (e : Fin 1650000) (n : Fin 50000) :
    Cert.Gcn.keyOf (cidx E) e = (n.val : Int) → Cert.Gcn.rowOf (by decide : 0 < 50000) (cnidx E) e = n := by
  intro hk
  have hk' : (val_main_v6 (F := Ideal) E (ix1 e)).toInt = (n.val : Int) := by
    rw [← cidx_apply]; exact hk
  refine Fin.ext ?_
  show min (cnidx E (ix2 e (0 : Fin 1))).toInt.toNat (50000 - 1) = n.val
  rw [cnidx_apply, wrap_of_nonneg _ (by omega), hk']
  have := n.isLt
  omega

/-! ## One aggregation, over a variable feature array -/

/-- The aggregation stage of a layer as the program computes it from the edge array `E` and a feature array `h`:
    the rows of `h` gathered at the sources, scaled by the edge weights, added at the destinations into zeros. -/
def aggRef (E : IVec S2x1600000 32) (h : (⟨S50000x128, .f32⟩ : BufTy).Contents (Elt Ideal)) :
    (⟨S50000x128, .f32⟩ : BufTy).Contents (Elt Ideal) :=
  Host.scatterAdd (F := Ideal) (φ := .f32) scatter_S50000x128_S1650000x1_S1650000x128_1_0_0_1 (val_main_v42 (F := Ideal))
    (val_main_v43 (F := Ideal) E)
    (mulf (F := Ideal) (φ := .f32) (Host.gather gather_S50000x128_S1650000x1_S1650000x128_1_0_n_n_0_1_1128 h (val_main_v37 (F := Ideal) E))
      (val_main_v40 (F := Ideal) E))

/-- The first layer's aggregation is that stage over the first product. -/
theorem v44_eq (x : (⟨S50000x128, .f32⟩ : BufTy).Contents (Elt Ideal)) (E : IVec S2x1600000 32)
    (W1 : (⟨S128x128, .f32⟩ : BufTy).Contents (Elt Ideal)) :
    val_main_v44 (F := Ideal) x E W1 = aggRef E (val_main_v31 (F := Ideal) x W1) := rfl

/-- The second layer recomputes the edge lists, the degrees, the factors and the index columns; they are the same
    terms, so its aggregation is the same stage over the second product. -/
theorem v93_eq (x : (⟨S50000x128, .f32⟩ : BufTy).Contents (Elt Ideal)) (E : IVec S2x1600000 32)
    (W1 : (⟨S128x128, .f32⟩ : BufTy).Contents (Elt Ideal)) (b1 : (⟨S128, .f32⟩ : BufTy).Contents (Elt Ideal))
    (W2 : (⟨S128x128, .f32⟩ : BufTy).Contents (Elt Ideal)) :
    val_main_v93 (F := Ideal) x E W1 b1 W2 = aggRef E (val_main_v80 (F := Ideal) x E W1 b1 W2) := rfl

/-- The weight of edge `e`, broadcast over the feature columns: the product of the factors at the edge's source row
    and at its destination row. (The factor gather at the sources reads a column that is the same term as the row
    gather's.) -/
theorem norm_apply (E : IVec S2x1600000 32) (e : Fin 1650000) (c : Fin 128) :
    val_main_v40 (F := Ideal) E (ix2 e c)
      = invv E (ix1 (Cert.Gcn.rowOf (by decide : 0 < 50000) (ridx E) e))
        * invv E (ix1 (Cert.Gcn.rowOf (by decide : 0 < 50000) (cnidx E) e)) := by
  have h40 : idx_main_v40 (ix2 e c) = ix2 e (0 : Fin 1) := by
    funext a; match a with | ⟨0, _⟩ => rfl | ⟨1, _⟩ => rfl
  have h39 : idx_main_v39 (ix2 e (0 : Fin 1)) = ix1 e := by
    funext a; match a with | ⟨0, _⟩ => rfl
  have h21 : val_main_v21 (F := Ideal) E (ix1 e) = invv E (ix1 (Cert.Gcn.rowOf (by decide : 0 < 50000) (ridx E) e)) :=
    gather_vec_apply _ _ e _ rfl
  have h28 : val_main_v28 (F := Ideal) E (ix1 e) = invv E (ix1 (Cert.Gcn.rowOf (by decide : 0 < 50000) (cnidx E) e)) :=
    gather_vec_apply _ _ e _ rfl
  rw [val_main_v40_apply, h40, val_main_v39_apply, h39, val_main_v29_apply, h21, h28]
  rfl

/-- THE AGGREGATION READ AT `(n, c)`: the zero word plus, over the edges whose signed key is `n`, column `c` of the
    source's feature row times the edge's weight. -/
theorem aggRef_apply (E : IVec S2x1600000 32) (h : (⟨S50000x128, .f32⟩ : BufTy).Contents (Elt Ideal))
    (n : Fin 50000) (c : Fin 128) :
    aggRef E h (ix2 n c)
      = Cert.Gcn.aggR (Cert.Gcn.keyOf (cidx E)) (Cert.Gcn.rowOf (by decide : 0 < 50000) (ridx E))
          (Cert.Gcn.rowOf (by decide : 0 < 50000) (cnidx E)) (fun m => invv E (ix1 m)) (fun m k => h (ix2 m k)) n c := by
  unfold aggRef Cert.Gcn.aggR
  refine (Cert.LibScatterAdd.scatterAdd_rows_apply scatter_S50000x128_S1650000x1_S1650000x128_1_0_0_1 rfl rfl rfl rfl
    _ _ _ n c).trans ?_
  have h42 : val_main_v42 (F := Ideal) (ix2 n c) = Ideal.ofBits .f32 0x00000000#32 := by
    rw [val_main_v42_apply, val_main_cst_8_apply]; rfl
  rw [h42]
  refine congrArg _ (Finset.sum_congr rfl fun e _ => ?_)
  have hg : Host.gather gather_S50000x128_S1650000x1_S1650000x128_1_0_n_n_0_1_1128 h (val_main_v37 (F := Ideal) E) (ix2 e c)
      = h (ix2 (Cert.Gcn.rowOf (by decide : 0 < 50000) (ridx E) e) c) :=
    Cert.Lib.GatherRows.gather_rows_apply _ h (val_main_v37 (F := Ideal) E) e c _ rfl
  have hu : mulf (F := Ideal) (φ := .f32) (Host.gather gather_S50000x128_S1650000x1_S1650000x128_1_0_n_n_0_1_1128 h (val_main_v37 (F := Ideal) E))
        (val_main_v40 (F := Ideal) E) (ix2 e c)
      = h (ix2 (Cert.Gcn.rowOf (by decide : 0 < 50000) (ridx E) e) c)
        * (invv E (ix1 (Cert.Gcn.rowOf (by decide : 0 < 50000) (ridx E) e))
          * invv E (ix1 (Cert.Gcn.rowOf (by decide : 0 < 50000) (cnidx E) e))) := by
    rw [mulf_apply, hg, norm_apply]
  rw [hu]
  rfl

/-! ## The products, the biases and the layers -/

/-- The first bias, broadcast over the nodes, at `(n, c)`. -/
theorem bias1_apply (b1 : S128.Idx → EReal) (n : Fin 50000) (c : Fin 128) :
    val_main_v46 (F := Ideal) b1 (ix2 n c) = b1 (ix1 c) := by
  have hi : idx_main_v45 (idx_main_v46 (ix2 n c)) = ix1 c := by
    funext a; match a with | ⟨0, _⟩ => rfl
  rw [val_main_v46_apply, val_main_v45_apply, hi]

/-- The second bias, broadcast over the nodes, at `(n, c)`. -/
theorem bias2_apply (b2 : S128.Idx → EReal) (n : Fin 50000) (c : Fin 128) :
    val_main_v95 (F := Ideal) b2 (ix2 n c) = b2 (ix1 c) := by
  have hi : idx_main_v94 (idx_main_v95 (ix2 n c)) = ix1 c := by
    funext a; match a with | ⟨0, _⟩ => rfl
  rw [val_main_v95_apply, val_main_v94_apply, hi]

/-- The first product by coordinates: the input times the transposed first weight matrix. -/
theorem mm1 (x : S50000x128.Idx → EReal) (W1 : S128x128.Idx → EReal) :
    (fun (m : Fin 50000) (k : Fin 128) => val_main_v31 (F := Ideal) x W1 (ix2 m k))
      = Cert.Gcn.mm x (val_main_v30 (F := Ideal) W1) := by
  funext m k
  unfold Cert.Gcn.mm
  rw [val_main_v31_apply]
  refine Finset.sum_congr rfl fun j _ => ?_
  have hl : lidx_main_v31 (ix2 m k) j = ix2 m j := by
    funext a; match a with | ⟨0, _⟩ => rfl | ⟨1, _⟩ => rfl
  have hr : ridx_main_v31 (ix2 m k) j = ix2 j k := by
    funext a; match a with | ⟨0, _⟩ => rfl | ⟨1, _⟩ => rfl
  rw [hl, hr]

/-- The second product by coordinates: the first layer's result times the transposed second weight matrix. -/
theorem mm2 (x : S50000x128.Idx → EReal) (E : IVec S2x1600000 32) (W1 : S128x128.Idx → EReal) (b1 : S128.Idx → EReal)
    (W2 : S128x128.Idx → EReal) :
    (fun (m : Fin 50000) (k : Fin 128) => val_main_v80 (F := Ideal) x E W1 b1 W2 (ix2 m k))
      = Cert.Gcn.mm (val_main_v48 (F := Ideal) x E W1 b1) (val_main_v79 (F := Ideal) W2) := by
  funext m k
  unfold Cert.Gcn.mm
  rw [val_main_v80_apply]
  refine Finset.sum_congr rfl fun j _ => ?_
  have hl : lidx_main_v80 (ix2 m k) j = ix2 m j := by
    funext a; match a with | ⟨0, _⟩ => rfl | ⟨1, _⟩ => rfl
  have hr : ridx_main_v80 (ix2 m k) j = ix2 j k := by
    funext a; match a with | ⟨0, _⟩ => rfl | ⟨1, _⟩ => rfl
  rw [hl, hr]

/-- THE FIRST LAYER: the aggregation of the first product, plus the bias, clamped below at zero. -/
theorem layer1_eq (x : S50000x128.Idx → EReal) (E : IVec S2x1600000 32) (W1 : S128x128.Idx → EReal)
    (b1 : S128.Idx → EReal) :
    val_main_v48 (F := Ideal) x E W1 b1
      = Cert.Gcn.arr (Cert.Gcn.layer1
          (Cert.Gcn.aggR (Cert.Gcn.keyOf (cidx E)) (Cert.Gcn.rowOf (by decide : 0 < 50000) (ridx E))
            (Cert.Gcn.rowOf (by decide : 0 < 50000) (cnidx E)) (fun m => invv E (ix1 m))
            (Cert.Gcn.mm x (val_main_v30 (F := Ideal) W1)))
          (fun c => b1 (ix1 c))) := by
  funext i
  obtain ⟨n, c, rfl⟩ : ∃ (n : Fin 50000) (c : Fin 128), i = ix2 n c := ⟨i 0, i 1, eq_ix2 i⟩
  rw [Cert.Gcn.arr_ix2]
  unfold Cert.Gcn.layer1
  have hz : val_main_call1_v0 (F := Ideal) (ix2 n c) = Ideal.ofBits .f32 0x00000000#32 := by
    rw [val_main_call1_v0_apply, val_main_call1_cst_apply]; rfl
  rw [val_main_v48_apply, val_main_v47_apply, hz, v44_eq, aggRef_apply, bias1_apply, mm1]
  rfl

/-! ## The whole reference program -/

/-- THE REFERENCE PROGRAM IS THE EDGE-WEIGHTED NETWORK over its own keys, rows and factors: the second layer's
    aggregation of the second product, plus the bias, plus the input. -/
theorem ref_eq (x : S50000x128.Idx → EReal) (E : IVec S2x1600000 32) (W1 : S128x128.Idx → EReal) (b1 : S128.Idx → EReal)
    (W2 : S128x128.Idx → EReal) (b2 : S128.Idx → EReal) :
    val_main_v97 (F := Ideal) x E W1 b1 W2 b2
      = Cert.Gcn.arr (Cert.Gcn.netR (Cert.Gcn.keyOf (cidx E)) (Cert.Gcn.rowOf (by decide) (ridx E))
          (Cert.Gcn.rowOf (by decide) (cnidx E)) (fun n => invv E (ix1 n))
          x (val_main_v30 (F := Ideal) W1) (val_main_v79 (F := Ideal) W2) (fun c => b1 (ix1 c)) (fun c => b2 (ix1 c))) := by
  funext i
  obtain ⟨n, c, rfl⟩ : ∃ (n : Fin 50000) (c : Fin 128), i = ix2 n c := ⟨i 0, i 1, eq_ix2 i⟩
  rw [Cert.Gcn.arr_ix2]
  unfold Cert.Gcn.netR Cert.Gcn.layer2
  rw [val_main_v97_apply, val_main_v96_apply, v93_eq, aggRef_apply, bias2_apply, mm2, layer1_eq]
  rfl

end Cert.ReferenceIdeal.Hand

end
-- ==== Proof.Bridge.lean ====
/-
  The two programs compute one function. The kernel program's result is the network with the degree factor applied at
  the source before the edges and at the destination after them; the reference's is the network with both factors
  applied on every edge. They are read over the same edge keys, source rows, factor vector, transposed weights and
  biases (the two programs spell these with the same host operations), and the two forms agree by the law of GcnLaw:
  the factors are nonnegative and finite, and an edge whose key is `n` reads its destination factor at `n`.
-/
import proofs.«170651_j54700703482252_2_alg».proof.Proof.KBridge
import proofs.«170651_j54700703482252_2_alg».proof.Proof.RefSide
import proofs.«170651_j54700703482252_2_alg».proof.Proof.LibColumns

set_option maxRecDepth 16384

noncomputable section

open Idealize.ShloMosaic Idealize.ShloMosaic.ValueIdx

namespace Cert.Bridge

open Cert.Gcn

/-- The factor vector at `n`, from any degrees: the masked inverse square root of the degree at `n`. -/
theorem invVecOf_apply (deg : (⟨1, ![50000]⟩ : Shape).Idx → EReal) (n : Fin 50000) :
    Cert.KernelIdeal.Val.invVecOf deg (ix1 n) = invOf (deg (ix1 n)) := rfl

/-- The two programs add up the same ones at the same keys: one degree vector. -/
theorem deg_eq (E : IVec ⟨2, ![2, 1600000]⟩ 32) :
    Cert.KernelIdeal.Val.degK E = Cert.ReferenceIdeal.ReadP.val_main_v10 (F := Ideal) E := rfl

/-- The factor column of the kernel program at row `n` is the reference's factor vector at `n`. -/
theorem inv_eq (E : IVec ⟨2, ![2, 1600000]⟩ 32) (n : Fin 50000) :
    Cert.KernelIdeal.Val.invK E (ix2 n (0 : Fin 1)) = Cert.ReferenceIdeal.Hand.invv E (ix1 n) := by
  unfold Cert.KernelIdeal.Val.invK Cert.KernelIdeal.Val.invColOf
  rw [Cert.LibColumns.shapeCast_a_a1_apply (Cert.KernelIdeal.Val.invVecOf (Cert.KernelIdeal.Val.degK E)) _ n (0 : Fin 1),
    invVecOf_apply, deg_eq, ← Cert.ReferenceIdeal.Hand.invv_eq]

/-- The reference's result and the kernel program's result are one function of the six arguments. -/
theorem ref_eq_kfun (x : (⟨2, ![50000, 128]⟩ : Shape).Idx → EReal) (E : IVec ⟨2, ![2, 1600000]⟩ 32)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    Cert.ReferenceIdeal.ReadP.val_main_v97 (F := Ideal) x E W1 b1 W2 b2 = Cert.KernelIdeal.Val.kfun x E W1 b1 W2 b2 := by
  rw [Cert.ReferenceIdeal.Hand.ref_eq, Cert.KernelIdeal.Val.kfun_eq]
  have hinv : (fun k : Fin 50000 => Cert.KernelIdeal.Val.invK E (ix2 k (0 : Fin 1))) = fun n => Cert.ReferenceIdeal.Hand.invv E (ix1 n) :=
    funext fun n => inv_eq E n
  have hc : Cert.KernelIdeal.Val.cidxK (Cert.KernelIdeal.Val.colK E) = Cert.ReferenceIdeal.Hand.cidx E := rfl
  have hr : Cert.KernelIdeal.Val.ridxK (Cert.KernelIdeal.Val.rowK E) = Cert.ReferenceIdeal.Hand.ridx E := rfl
  have ht1 : Cert.KernelIdeal.Val.trK W1 = Cert.ReferenceIdeal.ReadP.val_main_v30 (F := Ideal) W1 := rfl
  have ht2 : Cert.KernelIdeal.Val.trK W2 = Cert.ReferenceIdeal.ReadP.val_main_v79 (F := Ideal) W2 := rfl
  rw [hinv, hc, hr, ht1, ht2]
  exact congrArg arr (netK_eq_netR _ _ (rowOf (by decide : 0 < 50000) (Cert.ReferenceIdeal.Hand.cnidx E)) _
    (fun n => Cert.ReferenceIdeal.Hand.invv_nonneg_fin E n) (fun e n => Cert.ReferenceIdeal.Hand.cn_of_key E e n) _ _ _ _ _).symm

end Cert.Bridge

end
-- ==== Proof.lean ====
/-
  A two-layer graph convolution with symmetric degree normalisation (out = D^{-1/2} (A + I) D^{-1/2} (h · Wᵀ) + b per
  layer; a clamp at zero after the first, the input added after the second), as four pallas_calls among host gathers
  and scatter-adds, against its jnp reference: the certificate's five claims.

  The three frames are the generated ones (the reference's is its run with the result dropped). The ideal pass rewrote
  nothing, so `preserves` is `True`. For `algebraic`: the kernel program splits the edge weight
  `inv(source) · inv(destination)` — `inv = 1/√degree` — into a scaling of the features at the source, fused into the
  matrix product's kernel, and one scaling of the aggregated sum at the destination, fused into the epilogue's kernel,
  where the reference multiplies every gathered row by the product. Over the extended reals the destination's factor
  moves across the sum over a node's incoming edges because it is nonnegative and finite (an inverse square root of a
  positive degree, or a masked zero), whatever the features are; so the two results are one function of the six
  arguments (`Cert.Bridge.ref_eq_kfun`), the kernel program's read off its four regions and the host operations
  between them (`Val.result_eq`), the reference's off its run.
-/
import proofs.«170651_j54700703482252_2_alg».proof.Defs
import proofs.«170651_j54700703482252_2_alg».proof.Proof.Gen.Kernel
import proofs.«170651_j54700703482252_2_alg».proof.Proof.Gen.Kernel.Skeleton
import proofs.«170651_j54700703482252_2_alg».proof.Proof.Gen.Kernel.Launch
import proofs.«170651_j54700703482252_2_alg».proof.Proof.Gen.Kernel.Points
import proofs.«170651_j54700703482252_2_alg».proof.Proof.Gen.Kernel.Frame
import proofs.«170651_j54700703482252_2_alg».proof.Proof.Gen.KernelIdeal
import proofs.«170651_j54700703482252_2_alg».proof.Proof.Gen.KernelIdeal.Skeleton
import proofs.«170651_j54700703482252_2_alg».proof.Proof.Gen.KernelIdeal.Launch
import proofs.«170651_j54700703482252_2_alg».proof.Proof.Gen.KernelIdeal.Points
import proofs.«170651_j54700703482252_2_alg».proof.Proof.Gen.KernelIdeal.Frame
import proofs.«170651_j54700703482252_2_alg».proof.Proof.Gen.ReferenceIdeal
import proofs.«170651_j54700703482252_2_alg».proof.Proof.Gen.Pre_finite_inputs
import proofs.«170651_j54700703482252_2_alg».proof.Proof.RefRunP
import proofs.«170651_j54700703482252_2_alg».proof.Proof.RefReadP
import proofs.«170651_j54700703482252_2_alg».proof.Proof.KRun
import proofs.«170651_j54700703482252_2_alg».proof.Proof.KCompose
import proofs.«170651_j54700703482252_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at `kfun` of the arguments: the kernel program by its regions and host
    stretches, the reference by its run and the bridge. -/
theorem algebraic : Cert.algebraic_KernelIdeal_ReferenceIdeal := by
  intro m ρ m' ρ' _ hagree
  refine ⟨fun c => Cert.KernelIdeal.Val.kfun (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Val.result_eq m ρ c), (h c).2⟩)
      (Cert.KernelIdeal.Val.run_v0 (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v97_eq, e0, e1, e2, e3, e4, e5]
    exact Cert.Bridge.ref_eq_kfun _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
